-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S8x1024x2048 : Shape := ⟨3, ![8, 1024, 2048]⟩
abbrev S16384x2 : Shape := ⟨2, ![16384, 2]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x1024x2048 : S_.BroadcastsInDim S8x1024x2048 (![] : Fin 0 → Fin S8x1024x2048.rank)
  reducesTo_S8x1024x2048_S_d0_1_2 : S8x1024x2048.ReducesTo [0, 1, 2] S_

variable [Facts]

def fn {F : FTy → Type} [FloatOps F] (main_arg0 : FVec F S16384x1024 .f32) (main_arg1 : FVec F S8x1024x2048 .f32) (main_arg2 : IVec S16384x2 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8x1024x2048 .f32 := Host.absf main_arg1
  let main_cst_0 : FVec F S_ .f32 := constant S_ .f32 0x7F800000#32
  let main_v5 : FVec F S8x1024x2048 .f32 := broadcastInDim S8x1024x2048 ![] bcast_S_S8x1024x2048 main_cst_0
  let main_v6 : IVec S8x1024x2048 1 := cmpf .olt main_v4 main_v5
  let main_c_1 : IVec S_ 1 := constantI S_ 1 1#1
  let main_v7 : IVec S_ 1 := (fun x v => Host.reduce IntOp.andi x v reducesTo_S8x1024x2048_S_d0_1_2 h_S_) main_v6 main_c_1
  let main_v8 : IVec S_ 1 := andi main_v3 main_v7
  main_v8
-- ==== Kernel.lean ====
abbrev S16384x1024 : Shape := ⟨2, ![16384, 1024]⟩
abbrev S8x1024x2048 : Shape := ⟨3, ![8, 1024, 2048]⟩
abbrev S16384x2 : Shape := ⟨2, ![16384, 2]⟩
abbrev S16384x2048 : Shape := ⟨2, ![16384, 2048]⟩
abbrev S512x1024 : Shape := ⟨2, ![512, 1024]⟩
abbrev S512x2 : Shape := ⟨2, ![512, 2]⟩
abbrev S1x1024x2048 : Shape := ⟨3, ![1, 1024, 2048]⟩
abbrev S512x2048 : Shape := ⟨2, ![512, 2048]⟩
abbrev S2x512x2048 : Shape := ⟨3, ![2, 512, 2048]⟩
abbrev S1024x2048 : Shape := ⟨2, ![1024, 2048]⟩
abbrev S512x1 : Shape := ⟨2, ![512, 1]⟩
abbrev S1x512x2048 : Shape := ⟨3, ![1, 512, 2048]⟩
abbrev S32768x1024 : Shape := ⟨2, ![32768, 1024]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S8x1024x2048, .f32⟩
  | .hbm, ⟨2, _⟩ => ⟨S16384x2, .i32⟩
  | .hbm, ⟨3, _⟩ => ⟨S16384x1024, .bf16⟩
  | .hbm, ⟨4, _⟩ => ⟨S8x1024x2048, .bf16⟩
  | .hbm, ⟨5, _⟩ => ⟨S16384x2048, .f32⟩
  | .hbm, ⟨6, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x2, .i32⟩
  | .local _ .vmem, ⟨3, _⟩ => ⟨S512x2, .i32⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S2x512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  inb_S2x512x2048_S2x512x2048_0_0_0 : ∀ a, (![0, 0, 0] : Fin 3 → Nat) a + S2x512x2048.size a ≤ S2x512x2048.size a
  h_S2x512x2048 : 0 < S2x512x2048.numel
  shapeCasts_S2x512x2048_S2x512x2048 : S2x512x2048.ShapeCasts S2x512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S512x2_S512x2_0_0 : ∀ a, (![0, 0] : Fin 2 → Nat) a + S512x2.size a ≤ S512x2.size a
  h_S512x2 : 0 < S512x2.numel
  slices_S512x2_o0_0_S512x1 : S512x2.Slices ![0, 0] S512x1
  natLt_1_32 : 1 < 32
  inb_S2x512x2048_S1x512x2048_0_0_0 : ∀ a, (![0, 0, 0] : Fin 3 → Nat) a + S1x512x2048.size a ≤ S2x512x2048.size a
  h_S1x512x2048 : 0 < S1x512x2048.numel
  shapeCasts_S1x512x2048_S512x2048 : S1x512x2048.ShapeCasts S512x2048
  broadcasts_S512x1_S512x2048 : S512x1.Broadcasts S512x2048
  shapeCasts_S512x2048_S1x512x2048 : S512x2048.ShapeCasts S1x512x2048
  slices_S512x2_o0_1_S512x1 : S512x2.Slices ![0, 1] S512x1
  inb_S2x512x2048_S1x512x2048_1_0_0 : ∀ a, (![1, 0, 0] : Fin 3 → Nat) a + S1x512x2048.size a ≤ S2x512x2048.size a
  slices_S512x2048_o0_0_S512x1024 : S512x2048.Slices ![0, 0] S512x1024
  slices_S512x2048_o0_1024_S512x1024 : S512x2048.Slices ![0, 1024] S512x1024
  inb_S512x2048_S512x1024_0_0 : ∀ a, (![0, 0] : Fin 2 → Nat) a + S512x1024.size a ≤ S512x2048.size a
  inb_S512x2048_S512x1024_0_1024 : ∀ a, (![0, 1024] : Fin 2 → Nat) a + S512x1024.size a ≤ S512x2048.size a
  shapeCasts_S16384x2048_S32768x1024 : S16384x2048.ShapeCasts S32768x1024
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .bf16 = 32 ∨ (Rect.block (s := S16384x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S16384x2.size a
  hwx0_1 : ∀ i : grid0.Coords, EltTy.bits .i32 = 32 ∨ (Rect.block (s := S16384x2) S512x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x1024x2048.size a
  hwx0_2 : ∀ i : grid0.Coords, EltTy.bits .bf16 = 32 ∨ (Rect.block (s := S8x1024x2048) S1x1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x1024 : Shape := ⟨2, ![16384, 1024]⟩
abbrev S8x1024x2048 : Shape := ⟨3, ![8, 1024, 2048]⟩
abbrev S16384x2 : Shape := ⟨2, ![16384, 2]⟩
abbrev S16384x2x1024 : Shape := ⟨3, ![16384, 2, 1024]⟩
abbrev S32768x1024 : Shape := ⟨2, ![32768, 1024]⟩
abbrev S32768 : Shape := ⟨1, ![32768]⟩
abbrev S_ : Shape := ⟨0, ![]⟩
abbrev S32768x2048 : Shape := ⟨2, ![32768, 2048]⟩
abbrev S32768x1 : Shape := ⟨2, ![32768, 1]⟩
abbrev S1x1024x2048 : Shape := ⟨3, ![1, 1024, 2048]⟩
abbrev S1024x2048 : Shape := ⟨2, ![1024, 2048]⟩

abbrev nBuf : Space → Nat
  | .hbm => 108
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1024x2048, .f32⟩
  | .hbm, ⟨2, _⟩ => ⟨S16384x2, .i32⟩
  | .hbm, ⟨3, _⟩ => ⟨S16384x2x1024, .f32⟩
  | .hbm, ⟨4, _⟩ => ⟨S32768x1024, .f32⟩
  | .hbm, ⟨5, _⟩ => ⟨S32768, .i32⟩
  | .hbm, ⟨6, _⟩ => ⟨S_, .f32⟩
  | .hbm, ⟨7, _⟩ => ⟨S32768x2048, .f32⟩
  | .hbm, ⟨8, _⟩ => ⟨S_, .i32⟩
  | .hbm, ⟨9, _⟩ => ⟨S32768, .i32⟩
  | .hbm, ⟨10, _⟩ => ⟨S32768, .i1⟩
  | .hbm, ⟨11, _⟩ => ⟨S32768, .f32⟩
  | .hbm, ⟨12, _⟩ => ⟨S32768x1, .f32⟩
  | .hbm, ⟨13, _⟩ => ⟨S1x1024x2048, .f32⟩
  | .hbm, ⟨14, _⟩ => ⟨S1024x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .i32⟩
  | .hbm, ⟨20, _⟩ => ⟨S32768, .i32⟩
  | .hbm, ⟨21, _⟩ => ⟨S32768, .i1⟩
  | .hbm, ⟨22, _⟩ => ⟨S32768, .f32⟩
  | .hbm, ⟨23, _⟩ => ⟨S32768x1, .f32⟩
  | .hbm, ⟨24, _⟩ => ⟨S1x1024x2048, .f32⟩
  | .hbm, ⟨25, _⟩ => ⟨S1024x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S_, .i32⟩
  | .hbm, ⟨31, _⟩ => ⟨S32768, .i32⟩
  | .hbm, ⟨32, _⟩ => ⟨S32768, .i1⟩
  | .hbm, ⟨33, _⟩ => ⟨S32768, .f32⟩
  | .hbm, ⟨34, _⟩ => ⟨S32768x1, .f32⟩
  | .hbm, ⟨35, _⟩ => ⟨S1x1024x2048, .f32⟩
  | .hbm, ⟨36, _⟩ => ⟨S1024x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S32768x2048, .f32⟩
  | .hbm, ⟨41, _⟩ => ⟨S_, .i32⟩
  | .hbm, ⟨42, _⟩ => ⟨S32768, .i32⟩
  | .hbm, ⟨43, _⟩ => ⟨S32768, .i1⟩
  | .hbm, ⟨44, _⟩ => ⟨S32768, .f32⟩
  | .hbm, ⟨45, _⟩ => ⟨S32768x1, .f32⟩
  | .hbm, ⟨46, _⟩ => ⟨S1x1024x2048, .f32⟩
  | .hbm, ⟨47, _⟩ => ⟨S1024x2048, .f32⟩
  | .hbm, ⟨48, _⟩ => ⟨S32768x2048, .f32⟩
  | .hbm, ⟨49, _⟩ => ⟨S32768x2048, .f32⟩
  | .hbm, ⟨50, _⟩ => ⟨S32768x2048, .f32⟩
  | .hbm, ⟨51, _⟩ => ⟨S32768x2048, .f32⟩
  | .hbm, ⟨52, _⟩ => ⟨S_, .i32⟩
  | .hbm, ⟨53, _⟩ => ⟨S32768, .i32⟩
  | .hbm, ⟨54, _⟩ => ⟨S32768, .i1⟩
  | .hbm, ⟨55, _⟩ => ⟨S32768, .f32⟩
  | .hbm, ⟨56, _⟩ => ⟨S32768x1, .f32⟩
  | .hbm, ⟨57, _⟩ => ⟨S1x1024x2048, .f32⟩
  | .hbm, ⟨58, _⟩ => ⟨S1024x2048, .f32⟩
  | .hbm, ⟨59, _⟩ => ⟨S32768x2048, .f32⟩
  | .hbm, ⟨60, _⟩ => ⟨S32768x2048, .f32⟩
  | .hbm, ⟨61, _⟩ => ⟨S32768x2048, .f32⟩
  | .hbm, ⟨62, _⟩ => ⟨S32768x2048, .f32⟩
  | .hbm, ⟨63, _⟩ => ⟨S_, .i32⟩
  | .hbm, ⟨64, _⟩ => ⟨S32768, .i32⟩
  | .hbm, ⟨65, _⟩ => ⟨S32768, .i1⟩
  | .hbm, ⟨66, _⟩ => ⟨S32768, .f32⟩
  | .hbm, ⟨67, _⟩ => ⟨S32768x1, .f32⟩
  | .hbm, ⟨68, _⟩ => ⟨S1x1024x2048, .f32⟩
  | .hbm, ⟨69, _⟩ => ⟨S1024x2048, .f32⟩
  | .hbm, ⟨70, _⟩ => ⟨S32768x2048, .f32⟩
  | .hbm, ⟨71, _⟩ => ⟨S32768x2048, .f32⟩
  | .hbm, ⟨72, _⟩ => ⟨S32768x2048, .f32⟩
  | .hbm, ⟨73, _⟩ => ⟨S32768x2048, .f32⟩
  | .hbm, ⟨74, _⟩ => ⟨S_, .i32⟩
  | .hbm, ⟨75, _⟩ => ⟨S32768, .i32⟩
  | .hbm, ⟨76, _⟩ => ⟨S32768, .i1⟩
  | .hbm, ⟨77, _⟩ => ⟨S32768, .f32⟩
  | .hbm, ⟨78, _⟩ => ⟨S32768x1, .f32⟩
  | .hbm, ⟨79, _⟩ => ⟨S1x1024x2048, .f32⟩
  | .hbm, ⟨80, _⟩ => ⟨S1024x2048, .f32⟩
  | .hbm, ⟨81, _⟩ => ⟨S32768x2048, .f32⟩
  | .hbm, ⟨82, _⟩ => ⟨S32768x2048, .f32⟩
  | .hbm, ⟨83, _⟩ => ⟨S32768x2048, .f32⟩
  | .hbm, ⟨84, _⟩ => ⟨S32768x2048, .f32⟩
  | .hbm, ⟨85, _⟩ => ⟨S_, .i32⟩
  | .hbm, ⟨86, _⟩ => ⟨S32768, .i32⟩
  | .hbm, ⟨87, _⟩ => ⟨S32768, .i1⟩
  | .hbm, ⟨88, _⟩ => ⟨S32768, .f32⟩
  | .hbm, ⟨89, _⟩ => ⟨S32768x1, .f32⟩
  | .hbm, ⟨90, _⟩ => ⟨S1x1024x2048, .f32⟩
  | .hbm, ⟨91, _⟩ => ⟨S1024x2048, .f32⟩
  | .hbm, ⟨92, _⟩ => ⟨S32768x2048, .f32⟩
  | .hbm, ⟨93, _⟩ => ⟨S32768x2048, .f32⟩
  | .hbm, ⟨94, _⟩ => ⟨S32768x2048, .f32⟩
  | .hbm, ⟨95, _⟩ => ⟨S32768x2048, .f32⟩
  | .hbm, ⟨96, _⟩ => ⟨S32768x1024, .f32⟩
  | .hbm, ⟨97, _⟩ => ⟨S32768x1024, .f32⟩
  | .hbm, ⟨98, _⟩ => ⟨S32768x1024, .f32⟩
  | .hbm, ⟨99, _⟩ => ⟨S32768x1024, .f32⟩
  | .hbm, ⟨100, _⟩ => ⟨S_, .f32⟩
  | .hbm, ⟨101, _⟩ => ⟨S32768x1024, .f32⟩
  | .hbm, ⟨102, _⟩ => ⟨S32768x1024, .f32⟩
  | .hbm, ⟨103, _⟩ => ⟨S_, .f32⟩
  | .hbm, ⟨104, _⟩ => ⟨S32768x1024, .f32⟩
  | .hbm, ⟨105, _⟩ => ⟨S32768x1024, .f32⟩
  | .hbm, ⟨106, _⟩ => ⟨S32768x1024, .f32⟩
  | .hbm, ⟨107, _⟩ => ⟨S32768x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_c_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_c_4 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_c_5 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_c_6 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_call0_v0 : Ref sig .tc := ⟨.hbm, 98, rfl⟩
abbrev main_call0_v1 : Ref sig .tc := ⟨.hbm, 99, rfl⟩
abbrev main_call0_cst : Ref sig .tc := ⟨.hbm, 100, rfl⟩
abbrev main_call0_v2 : Ref sig .tc := ⟨.hbm, 101, rfl⟩
abbrev main_call0_v3 : Ref sig .tc := ⟨.hbm, 102, rfl⟩
abbrev main_call0_cst_0 : Ref sig .tc := ⟨.hbm, 103, rfl⟩
abbrev main_call0_v4 : Ref sig .tc := ⟨.hbm, 104, rfl⟩
abbrev main_call0_v5 : Ref sig .tc := ⟨.hbm, 105, rfl⟩
abbrev main_v86 : Ref sig .tc := ⟨.hbm, 106, rfl⟩
abbrev main_v87 : Ref sig .tc := ⟨.hbm, 107, rfl⟩

abbrev nD : Nat := 1
abbrev τ : Topo := Topo.v7x

variable {F : FTy → Type} [FloatOps F]

class Facts₀ : Prop where
  bcast_S16384x1024_S16384x2x1024_0_2 : S16384x1024.BroadcastsInDim S16384x2x1024 (![0, 2] : Fin 2 → Fin S16384x2x1024.rank)
  shapeCasts_S16384x2x1024_S32768x1024 : S16384x2x1024.ShapeCasts S32768x1024
  shapeCasts_S16384x2_S32768 : S16384x2.ShapeCasts S32768
  bcast_S_S32768x2048 : S_.BroadcastsInDim S32768x2048 (![] : Fin 0 → Fin S32768x2048.rank)
  bcast_S_S32768 : S_.BroadcastsInDim S32768 (![] : Fin 0 → Fin S32768.rank)
  bcast_S32768_S32768x1_0 : S32768.BroadcastsInDim S32768x1 (![0] : Fin 1 → Fin S32768x1.rank)
  slices_S8x1024x2048_S1x1024x2048_0_0_0 : S8x1024x2048.Slices ![0, 0, 0] S1x1024x2048
  shapeCasts_S1x1024x2048_S1024x2048 : S1x1024x2048.ShapeCasts S1024x2048
  bcast_S32768x1_S32768x2048_0_1 : S32768x1.BroadcastsInDim S32768x2048 (![0, 1] : Fin 2 → Fin S32768x2048.rank)
  slices_S8x1024x2048_S1x1024x2048_1_0_0 : S8x1024x2048.Slices ![1, 0, 0] S1x1024x2048
  slices_S8x1024x2048_S1x1024x2048_2_0_0 : S8x1024x2048.Slices ![2, 0, 0] S1x1024x2048
  slices_S8x1024x2048_S1x1024x2048_3_0_0 : S8x1024x2048.Slices ![3, 0, 0] S1x1024x2048
  slices_S8x1024x2048_S1x1024x2048_4_0_0 : S8x1024x2048.Slices ![4, 0, 0] S1x1024x2048
  slices_S8x1024x2048_S1x1024x2048_5_0_0 : S8x1024x2048.Slices ![5, 0, 0] S1x1024x2048
  slices_S8x1024x2048_S1x1024x2048_6_0_0 : S8x1024x2048.Slices ![6, 0, 0] S1x1024x2048
  slices_S8x1024x2048_S1x1024x2048_7_0_0 : S8x1024x2048.Slices ![7, 0, 0] S1x1024x2048
  slices_S32768x2048_S32768x1024_0_0 : S32768x2048.Slices ![0, 0] S32768x1024
  slices_S32768x2048_S32768x1024_0_1024 : S32768x2048.Slices ![0, 1024] S32768x1024
  bcast_S_S32768x1024 : S_.BroadcastsInDim S32768x1024 (![] : Fin 0 → Fin S32768x1024.rank)
  dot_S32768x1024_S1024x2048_S32768x2048_1_0_0_1_n_n_wf : DotDims.WF S32768x1024 S1024x2048 S32768x2048 [1] [0] [0] [1] [] []

variable [Facts₀]

def dot_S32768x1024_S1024x2048_S32768x2048_1_0_0_1_n_n : DotDims S32768x1024 S1024x2048 S32768x2048 where
  lhsContracting := [1]
  rhsContracting := [0]
  lhsNonContracting := [0]
  rhsNonContracting := [1]
  lhsBatch := []
  rhsBatch := []
  wf := dot_S32768x1024_S1024x2048_S32768x2048_1_0_0_1_n_n_wf

class Facts : Prop extends Facts₀ where

variable [Facts]
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«110065_j36816459661327_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«110065_j36816459661327_2_alg».proof.Proof.LibDenseRows
import proofs.«110065_j36816459661327_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.MoeSpec.lean ====
/-
  What both programs compute, as one function of the three argument arrays, over the extended reals.

  h is the [16384, 1024] array of hidden rows, w the [8, 1024, 2048] array of expert weights, ids the [16384, 2]
  array of routing choices. For row m, routing choice t and column j the accumulated projection is the ordered sum

      A(m, t, j) = (((0 + T₀) + T₁) + …) + T₇,     Tₑ = (∑ₖ h(m, k) · w(e, k, j)) · [ids(m, t) = e],

  and the result row p = 2·m + t holds, at column q < 1024, the gated product (g · logistic g) · u with
  g = A(m, t, q) and u = A(m, t, 1024 + q).
-/
import Idealize.ShloMosaic.PureOps.Ideal
import Idealize.ShloMosaic.PureOps.Ideal.Laws
import Idealize.ShloMosaic.Lib.ValueIdx

noncomputable section

open scoped BigOperators
open Idealize.ShloMosaic

namespace Cert.Moe

/-- Column `q` of the low half of a 2048-wide row. -/
abbrev lo (q : Fin 1024) : Fin 2048 := ⟨q.val, by have := q.isLt; omega⟩
/-- Column `q` of the high half of a 2048-wide row. -/
abbrev hi (q : Fin 1024) : Fin 2048 := ⟨1024 + q.val, by have := q.isLt; omega⟩

/-- The routing mask as a number: the comparison bit read as 0 or 1. -/
def maskVal (b : BitVec 1) : EReal := ((b.toNat : ℝ) : EReal)

/-- A comparison bit widened to 32 bits and read as a signed integer is the bit. -/
theorem mask_sitofp (b : BitVec 1) : FloatOps.sitofp (F := Ideal) .f32 (b.setWidth 32) = maskVal b := by
  show (((b.setWidth 32).toInt : ℝ) : EReal) = ((b.toNat : ℝ) : EReal)
  rcases BitVec.eq_zero_or_eq_one b with h | h <;> subst h <;> simp

/-- A comparison bit read as an unsigned integer is the bit. -/
theorem mask_uitofp (b : BitVec 1) : FloatOps.uitofp (F := Ideal) .f32 b = maskVal b := rfl

/-- The gated product of a 2048-wide row at column q: (g · logistic g) · u, g the low column q, u the high column q. -/
def gated (X : Fin 2048 → EReal) (q : Fin 1024) : EReal :=
  (X (lo q) * Ideal.logistic (X (lo q))) * X (hi q)

/-- Row m = p / 2 of the hidden array feeds result row p. -/
abbrev rowOf (p : Fin 32768) : Fin 16384 := ⟨p.val / 2, by have := p.isLt; omega⟩
/-- Routing choice t = p % 2 of result row p. -/
abbrev choiceOf (p : Fin 32768) : Fin 2 := ⟨p.val % 2, by omega⟩

/-- The three argument arrays by coordinates. -/
def hOf (x0 : (⟨2, ![16384, 1024]⟩ : Shape).Idx → EReal) : Fin 16384 → Fin 1024 → EReal := fun m k => x0 (ValueIdx.ix2 m k)
def wOf (x1 : (⟨3, ![8, 1024, 2048]⟩ : Shape).Idx → EReal) : Fin 8 → Fin 1024 → Fin 2048 → EReal := fun e k j => x1 (ValueIdx.ix3 e k j)
def idsOf (x2 : (⟨2, ![16384, 2]⟩ : Shape).Idx → BitVec 32) : Fin 16384 → Fin 2 → BitVec 32 := fun m t => x2 (ValueIdx.ix2 m t)

section Spec

variable (h : Fin 16384 → Fin 1024 → EReal) (w : Fin 8 → Fin 1024 → Fin 2048 → EReal) (ids : Fin 16384 → Fin 2 → BitVec 32)

/-- Expert e's contribution to row m, routing choice t, column j. -/
def term (e : Fin 8) (m : Fin 16384) (t : Fin 2) (j : Fin 2048) : EReal :=
  (∑ k : Fin 1024, h m k * w e k j) * maskVal (IntOp.cmpi .eq (ids m t) (BitVec.ofNat 32 e.val))

/-- The ordered sum of the first n experts' contributions, from the zero word. -/
def acc (m : Fin 16384) (t : Fin 2) (j : Fin 2048) : (n : ℕ) → n ≤ 8 → EReal
  | 0, _ => Ideal.ofBits .f32 0x00000000#32
  | n + 1, hn => acc m t j n (Nat.le_of_succ_le hn) + term h w ids ⟨n, hn⟩ m t j

theorem acc_zero (m : Fin 16384) (t : Fin 2) (j : Fin 2048) (hn : 0 ≤ 8) :
    acc h w ids m t j 0 hn = Ideal.ofBits .f32 0x00000000#32 := rfl

theorem acc_succ (m : Fin 16384) (t : Fin 2) (j : Fin 2048) (n : ℕ) (hn : n + 1 ≤ 8) :
    acc h w ids m t j (n + 1) hn = acc h w ids m t j n (Nat.le_of_succ_le hn) + term h w ids ⟨n, hn⟩ m t j := rfl

/-- The result at row p = 2·m + t, column q. -/
def result (p : Fin 32768) (q : Fin 1024) : EReal :=
  gated (fun j => acc h w ids (rowOf p) (choiceOf p) j 8 (Nat.le_refl 8)) q

end Spec

end Cert.Moe

end
-- ==== Proof.Slots.lean ====
/-
  A scratch buffer of shape [2, 512, 2048] is used as two slots, one per routing choice; an output block of
  shape [512, 2048] is written as two column halves. This module reads back, index by index, what a list of
  stores through those rectangles leaves: the last store that covers an index decides it, and a store through
  the other slot (the other half) leaves it alone. It also says which element of the buffer a load through a
  slot rectangle fetches.
-/
import proofs.«110065_j36816459661327_2_alg».proof.KernelIdeal
import Idealize.ShloMosaic.Lib.Pipeline.FrameBody
import Idealize.ShloMosaic.Lib.Pipeline.Value
import Idealize.ShloMosaic.Lib.ValueIdx
import proofs.«110065_j36816459661327_2_alg».proof.Proof.MoeSpec

noncomputable section

open Idealize.ShloMosaic Idealize.ShloMosaic.ValueIdx

namespace Cert.KernelIdeal.Slots

open Cert.KernelIdeal Cert.Moe

variable {Val : EltTy → Type} [∀ e, Nonempty (Val e)]

/-! ## The two slots of the scratch -/

/-- Slot 1's rectangle places local index (0, r, j) at (1, r, j). -/
theorem slot1_emb (inb) (r : Fin 512) (j : Fin 2048) :
    (Rect.unit (s := S2x512x2048) ![1, 0, 0] ![1, 512, 2048] inb).emb (ix3 (0 : Fin 1) r j) = ix3 (1 : Fin 2) r j := by
  funext a
  apply Fin.ext
  match a with
  | ⟨0, _⟩ => rfl
  | ⟨1, _⟩ => show 0 + 1 * r.val = r.val; omega
  | ⟨2, _⟩ => show 0 + 1 * j.val = j.val; omega

/-- Slot 0's rectangle places local index (0, r, j) at (0, r, j). -/
theorem slot0_emb (inb) (r : Fin 512) (j : Fin 2048) :
    (Rect.unit (s := S2x512x2048) ![0, 0, 0] ![1, 512, 2048] inb).emb (ix3 (0 : Fin 1) r j) = ix3 (0 : Fin 2) r j := by
  funext a
  apply Fin.ext
  match a with
  | ⟨0, _⟩ => rfl
  | ⟨1, _⟩ => show 0 + 1 * r.val = r.val; omega
  | ⟨2, _⟩ => show 0 + 1 * j.val = j.val; omega

/-- An index of slot 0 is outside slot 1's rectangle. -/
theorem slot0_not_mem_slot1 (inb) (r : Fin 512) (j : Fin 2048) :
    ix3 (0 : Fin 2) r j ∉ (Rect.unit (s := S2x512x2048) ![1, 0, 0] ![1, 512, 2048] inb).set := by
  intro h
  have h0 : (1 : Nat) ≤ 0 := ((Rect.mem_set_unit.mp h) 0).1
  omega

/-- An index of slot 1 is outside slot 0's rectangle. -/
theorem slot1_not_mem_slot0 (inb) (r : Fin 512) (j : Fin 2048) :
    ix3 (1 : Fin 2) r j ∉ (Rect.unit (s := S2x512x2048) ![0, 0, 0] ![1, 512, 2048] inb).set := by
  intro h
  have h0 : (1 : Nat) < 0 + 1 := ((Rect.mem_set_unit.mp h) 0).2
  omega

/-- A last store through slot 1 decides slot 1; -/
theorem canon_slot1_hit (inb) (w : (⟨3, ![1, 512, 2048]⟩ : Shape).Idx → Val .f32) (L : List (View.Piece Val S2x512x2048 .f32))
    (r : Fin 512) (j : Fin 2048) :
    View.canon (⟨Rect.unit (s := S2x512x2048) ![1, 0, 0] ![1, 512, 2048] inb, w⟩ :: L) (ix3 (1 : Fin 2) r j) = w (ix3 (0 : Fin 1) r j) :=
  (congrArg (View.canon (⟨Rect.unit (s := S2x512x2048) ![1, 0, 0] ![1, 512, 2048] inb, w⟩ :: L)) (slot1_emb inb r j)).symm.trans
    (View.canon_cons_emb (Rect.unit (s := S2x512x2048) ![1, 0, 0] ![1, 512, 2048] inb) w L (ix3 (0 : Fin 1) r j))

/-- and leaves slot 0 to the earlier stores. -/
theorem canon_slot1_miss (inb) (w : (⟨3, ![1, 512, 2048]⟩ : Shape).Idx → Val .f32) (L : List (View.Piece Val S2x512x2048 .f32))
    (r : Fin 512) (j : Fin 2048) :
    View.canon (⟨Rect.unit (s := S2x512x2048) ![1, 0, 0] ![1, 512, 2048] inb, w⟩ :: L) (ix3 (0 : Fin 2) r j) = View.canon L (ix3 (0 : Fin 2) r j) :=
  View.canon_cons_of_not_mem _ L (slot0_not_mem_slot1 inb r j)

/-- A last store through slot 0 decides slot 0; -/
theorem canon_slot0_hit (inb) (w : (⟨3, ![1, 512, 2048]⟩ : Shape).Idx → Val .f32) (L : List (View.Piece Val S2x512x2048 .f32))
    (r : Fin 512) (j : Fin 2048) :
    View.canon (⟨Rect.unit (s := S2x512x2048) ![0, 0, 0] ![1, 512, 2048] inb, w⟩ :: L) (ix3 (0 : Fin 2) r j) = w (ix3 (0 : Fin 1) r j) :=
  (congrArg (View.canon (⟨Rect.unit (s := S2x512x2048) ![0, 0, 0] ![1, 512, 2048] inb, w⟩ :: L)) (slot0_emb inb r j)).symm.trans
    (View.canon_cons_emb (Rect.unit (s := S2x512x2048) ![0, 0, 0] ![1, 512, 2048] inb) w L (ix3 (0 : Fin 1) r j))

/-- and leaves slot 1 to the earlier stores. -/
theorem canon_slot0_miss (inb) (w : (⟨3, ![1, 512, 2048]⟩ : Shape).Idx → Val .f32) (L : List (View.Piece Val S2x512x2048 .f32))
    (r : Fin 512) (j : Fin 2048) :
    View.canon (⟨Rect.unit (s := S2x512x2048) ![0, 0, 0] ![1, 512, 2048] inb, w⟩ :: L) (ix3 (1 : Fin 2) r j) = View.canon L (ix3 (1 : Fin 2) r j) :=
  View.canon_cons_of_not_mem _ L (slot1_not_mem_slot0 inb r j)

/-- A load through slot 1's rectangle fetches (1, r, j) at its local index (0, r, j). -/
theorem ld_slot1 (inb) (X : S2x512x2048.Idx → Val .f32) (r : Fin 512) (j : Fin 2048) :
    View.ld X (Rect.unit (s := S2x512x2048) ![1, 0, 0] ![1, 512, 2048] inb) (ix3 (0 : Fin 1) r j) = X (ix3 (1 : Fin 2) r j) :=
  congrArg X (slot1_emb inb r j)

/-- A load through slot 0's rectangle fetches (0, r, j) at its local index (0, r, j). -/
theorem ld_slot0 (inb) (X : S2x512x2048.Idx → Val .f32) (r : Fin 512) (j : Fin 2048) :
    View.ld X (Rect.unit (s := S2x512x2048) ![0, 0, 0] ![1, 512, 2048] inb) (ix3 (0 : Fin 1) r j) = X (ix3 (0 : Fin 2) r j) :=
  congrArg X (slot0_emb inb r j)

/-- A load through slot 1 of what the stores `L` left reads, at local (0, r, j), their canon at (1, r, j). -/
theorem readCov_slot1 {sig : RefSig} {κ : Kind} {sp : Space} (v : View sig κ sp S2x512x2048 .f32)
    (L : List (View.Piece Val S2x512x2048 .f32)) (inb) (r : Fin 512) (j : Fin 2048) :
    v.readCov L (Rect.unit (s := S2x512x2048) ![1, 0, 0] ![1, 512, 2048] inb).toLoadRect (ix3 (0 : Fin 1) r j)
      = View.canon L (ix3 (1 : Fin 2) r j) :=
  (congrFun (View.readCov_eq_canon' v L _) _).trans (congrArg (View.canon L) (slot1_emb inb r j))

/-- A load through slot 0 of what the stores `L` left reads, at local (0, r, j), their canon at (0, r, j). -/
theorem readCov_slot0 {sig : RefSig} {κ : Kind} {sp : Space} (v : View sig κ sp S2x512x2048 .f32)
    (L : List (View.Piece Val S2x512x2048 .f32)) (inb) (r : Fin 512) (j : Fin 2048) :
    v.readCov L (Rect.unit (s := S2x512x2048) ![0, 0, 0] ![1, 512, 2048] inb).toLoadRect (ix3 (0 : Fin 1) r j)
      = View.canon L (ix3 (0 : Fin 2) r j) :=
  (congrFun (View.readCov_eq_canon' v L _) _).trans (congrArg (View.canon L) (slot0_emb inb r j))

/-! ## The two column halves of the output block -/

/-- The high half's rectangle places local (r, q) at (r, 1024 + q). -/
theorem hi_emb (inb) (r : Fin 512) (q : Fin 1024) :
    (Rect.unit (s := S512x2048) ![0, 1024] ![512, 1024] inb).emb (ix2 r q) = ix2 r (hi q) := by
  funext a
  apply Fin.ext
  match a with
  | ⟨0, _⟩ => show 0 + 1 * r.val = r.val; omega
  | ⟨1, _⟩ => show 1024 + 1 * q.val = 1024 + q.val; omega

/-- The low half's rectangle places local (r, q) at (r, q). -/
theorem lo_emb (inb) (r : Fin 512) (q : Fin 1024) :
    (Rect.unit (s := S512x2048) ![0, 0] ![512, 1024] inb).emb (ix2 r q) = ix2 r (lo q) := by
  funext a
  apply Fin.ext
  match a with
  | ⟨0, _⟩ => show 0 + 1 * r.val = r.val; omega
  | ⟨1, _⟩ => show 0 + 1 * q.val = q.val; omega

/-- A column of the low half is outside the high half's rectangle. -/
theorem lo_not_mem_hi (inb) (r : Fin 512) (q : Fin 1024) :
    ix2 r (lo q) ∉ (Rect.unit (s := S512x2048) ![0, 1024] ![512, 1024] inb).set := by
  intro h
  have h0 : (1024 : Nat) ≤ q.val := ((Rect.mem_set_unit.mp h) 1).1
  have := q.isLt
  omega

/-- A last store through the high half decides it; -/
theorem canon_hi_hit (inb) (w : (⟨2, ![512, 1024]⟩ : Shape).Idx → Val .f32) (L : List (View.Piece Val S512x2048 .f32))
    (r : Fin 512) (q : Fin 1024) :
    View.canon (⟨Rect.unit (s := S512x2048) ![0, 1024] ![512, 1024] inb, w⟩ :: L) (ix2 r (hi q)) = w (ix2 r q) :=
  (congrArg (View.canon (⟨Rect.unit (s := S512x2048) ![0, 1024] ![512, 1024] inb, w⟩ :: L)) (hi_emb inb r q)).symm.trans
    (View.canon_cons_emb (Rect.unit (s := S512x2048) ![0, 1024] ![512, 1024] inb) w L (ix2 r q))

/-- and leaves the low half to the earlier stores. -/
theorem canon_hi_miss (inb) (w : (⟨2, ![512, 1024]⟩ : Shape).Idx → Val .f32) (L : List (View.Piece Val S512x2048 .f32))
    (r : Fin 512) (q : Fin 1024) :
    View.canon (⟨Rect.unit (s := S512x2048) ![0, 1024] ![512, 1024] inb, w⟩ :: L) (ix2 r (lo q)) = View.canon L (ix2 r (lo q)) :=
  View.canon_cons_of_not_mem _ L (lo_not_mem_hi inb r q)

/-- A last store through the low half decides it. -/
theorem canon_lo_hit (inb) (w : (⟨2, ![512, 1024]⟩ : Shape).Idx → Val .f32) (L : List (View.Piece Val S512x2048 .f32))
    (r : Fin 512) (q : Fin 1024) :
    View.canon (⟨Rect.unit (s := S512x2048) ![0, 0] ![512, 1024] inb, w⟩ :: L) (ix2 r (lo q)) = w (ix2 r q) :=
  (congrArg (View.canon (⟨Rect.unit (s := S512x2048) ![0, 0] ![512, 1024] inb, w⟩ :: L)) (lo_emb inb r q)).symm.trans
    (View.canon_cons_emb (Rect.unit (s := S512x2048) ![0, 0] ![512, 1024] inb) w L (ix2 r q))

end Cert.KernelIdeal.Slots

end
-- ==== Proof.BodyValue.lean ====
/-
  The arithmetic of one grid step, read at the exact (extended-real) instance, one entry at a time.

  At a step for expert e the body forms P = h · w_e once (a plain [512,1024] by [1024,2048] product into a zero
  accumulator), and for each routing choice t in {0, 1} adds P times the row mask [ids(r, t) = e] to slot t of the
  scratch. At the last expert it also turns each slot into an output half: with g the low 1024 columns of the slot and
  u the high 1024 columns, the half is (g · logistic g) · u.

  The mask is an i1 comparison widened to i32 and read as a signed integer: 0 or 1, the same number the unsigned
  reading of the i1 gives.
-/
import proofs.«110065_j36816459661327_2_alg».proof.Proof.Gen.KernelIdeal.Skeleton
import proofs.«110065_j36816459661327_2_alg».proof.Proof.LibPlainLayers
import proofs.«110065_j36816459661327_2_alg».proof.Proof.Slots
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.BodyValue

open Cert.KernelIdeal Cert.KernelIdeal.Gen Cert.KernelIdeal.Slots Cert.Moe

/-- The product of the step: row r of the hidden block against column j of the expert's weight block. -/
theorem pay5_apply (v3 : FVec Ideal S512x1024 .bf16) (v5 : FVec Ideal S1x1024x2048 .bf16) (r : Fin 512) (j : Fin 2048) :
    k0_pay5 (F := Ideal) v3 v5 (ix2 r j) = ∑ k : Fin 1024, v3 (ix2 r k) * v5 (ix3 (0 : Fin 1) k j) := by
  unfold k0_pay5
  refine (Cert.PlainLayers.plainMM_of_eq dot_S512x1024_S1024x2048_S512x2048_1_0_0_1_n_n rfl none _ _ r j).trans ?_
  refine Finset.sum_congr rfl fun k _ => congrArg₂ (· * ·) ?_ ?_
  · exact congrFun (shapeCast_self v3 _) _
  · exact shapeCast_1ab_ab_apply v5 _ k j

/-- The mask column of routing choice `t` against expert word `e`, at row r. -/
theorem maskCol_apply (t : Nat) (ht : t < 2) (v7 : IVec S512x2 32) (e : BitVec 32)
    (h : S512x2.Slices ![0, t] S512x1) (hlt : 1 < 32) (r : Fin 512) :
    (sitofp (F := Ideal) .f32 (extui 32 (cmpi .eq (extractStridedSlice S512x1 ![0, t] v7 h) (broadcast S512x1 e)) hlt)) (ix2 r (0 : Fin 1))
      = maskVal (IntOp.cmpi .eq (v7 (ix2 r (⟨t, ht⟩ : Fin 2))) e) := by
  show FloatOps.sitofp (F := Ideal) .f32 ((IntOp.cmpi .eq (extractStridedSlice S512x1 ![0, t] v7 h (ix2 r (0 : Fin 1))) e).setWidth 32) = _
  rw [slice2_axis1_apply t v7 h r (0 : Fin 1) (⟨t, ht⟩ : Fin 2) rfl]
  exact mask_sitofp _

/-- Slot 0 after the step: what it held plus the product times the mask of routing choice 0. -/
theorem pay6_apply (i : grid0.Coords) (v3 : FVec Ideal S512x1024 .bf16) (v5 : FVec Ideal S1x1024x2048 .bf16)
    (v7 : IVec S512x2 32) (v14 : FVec Ideal S1x512x2048 .f32) (r : Fin 512) (j : Fin 2048) :
    k0_pay6 (F := Ideal) i v3 v5 v7 v14 (ix3 (0 : Fin 1) r j)
      = v14 (ix3 (0 : Fin 1) r j)
        + (∑ k : Fin 1024, v3 (ix2 r k) * v5 (ix3 (0 : Fin 1) k j))
          * maskVal (IntOp.cmpi .eq (v7 (ix2 r (0 : Fin 2))) (BitVec.ofNat 32 (i 1).val)) := by
  unfold k0_pay6
  dsimp only
  refine (shapeCast_ab_1ab_apply _ _ (0 : Fin 1) r j).trans ?_
  refine congrArg₂ (· + ·) (shapeCast_1ab_ab_apply v14 _ r j) ?_
  refine congrArg₂ (· * ·) (pay5_apply v3 v5 r j) ?_
  refine (Cert.Columns.broadcastTo_a1_ab_apply _ _ r j).trans ?_
  exact maskCol_apply 0 (by decide) v7 _ _ _ r

/-- Slot 1 after the step: what it held plus the product times the mask of routing choice 1. -/
theorem pay7_apply (i : grid0.Coords) (v3 : FVec Ideal S512x1024 .bf16) (v5 : FVec Ideal S1x1024x2048 .bf16)
    (v7 : IVec S512x2 32) (v27 : FVec Ideal S1x512x2048 .f32) (r : Fin 512) (j : Fin 2048) :
    k0_pay1 (F := Ideal) (k0_pay7 (F := Ideal) i v3 v5 v7 v27) (ix3 (0 : Fin 1) r j)
      = v27 (ix3 (0 : Fin 1) r j)
        + (∑ k : Fin 1024, v3 (ix2 r k) * v5 (ix3 (0 : Fin 1) k j))
          * maskVal (IntOp.cmpi .eq (v7 (ix2 r (1 : Fin 2))) (BitVec.ofNat 32 (i 1).val)) := by
  unfold k0_pay1 k0_pay7
  dsimp only
  refine (shapeCast_ab_1ab_apply _ _ (0 : Fin 1) r j).trans ?_
  refine congrArg₂ (· + ·) (shapeCast_1ab_ab_apply v27 _ r j) ?_
  refine congrArg₂ (· * ·) (pay5_apply v3 v5 r j) ?_
  refine (Cert.Columns.broadcastTo_a1_ab_apply _ _ r j).trans ?_
  exact maskCol_apply 1 (by decide) v7 _ _ _ r

/-- The output half written from slot 0. -/
theorem pay2_apply (v38 : FVec Ideal S1x512x2048 .f32) (r : Fin 512) (q : Fin 1024) :
    k0_pay2 (F := Ideal) v38 (ix2 r q) = gated (fun j => v38 (ix3 (0 : Fin 1) r j)) q := by
  unfold k0_pay2
  show (extractStridedSlice S512x1024 ![0, 0] (shapeCast S512x2048 v38 _) _ (ix2 r q)
      * Ideal.logistic (extractStridedSlice S512x1024 ![0, 0] (shapeCast S512x2048 v38 _) _ (ix2 r q)))
      * extractStridedSlice S512x1024 ![0, 1024] (shapeCast S512x2048 v38 _) _ (ix2 r q) = _
  rw [slice2_axis1_apply 0 _ _ r q (lo q) (by show q.val = 0 + q.val; omega),
    slice2_axis1_apply 1024 _ _ r q (hi q) rfl,
    shapeCast_1ab_ab_apply v38 _ r (lo q), shapeCast_1ab_ab_apply v38 _ r (hi q)]
  rfl

/-- The output half written from slot 1: the same function of the slot. -/
theorem pay3_apply (v46 : FVec Ideal S1x512x2048 .f32) (r : Fin 512) (q : Fin 1024) :
    k0_pay3 (F := Ideal) v46 (ix2 r q) = gated (fun j => v46 (ix3 (0 : Fin 1) r j)) q := by
  unfold k0_pay3
  show (extractStridedSlice S512x1024 ![0, 0] (shapeCast S512x2048 v46 _) _ (ix2 r q)
      * Ideal.logistic (extractStridedSlice S512x1024 ![0, 0] (shapeCast S512x2048 v46 _) _ (ix2 r q)))
      * extractStridedSlice S512x1024 ![0, 1024] (shapeCast S512x2048 v46 _) _ (ix2 r q) = _
  rw [slice2_axis1_apply 0 _ _ r q (lo q) (by show q.val = 0 + q.val; omega),
    slice2_axis1_apply 1024 _ _ r q (hi q) rfl,
    shapeCast_1ab_ab_apply v46 _ r (lo q), shapeCast_1ab_ab_apply v46 _ r (hi q)]
  rfl

/-- The fill at the first expert: every entry the zero word. -/
theorem pay4_apply (y : S2x512x2048.Idx) :
    k0_pay4 (F := Ideal) y = Ideal.ofBits .f32 0x00000000#32 := by
  unfold k0_pay4
  exact congrFun (shapeCast_self _ _) y

end Cert.KernelIdeal.BodyValue

end
-- ==== Proof.BodyPieces.lean ====
/-
  What one grid step leaves in the scratch and, at the last expert, in the output block — read entry by entry at the
  exact instance.

  The scratch holds, in slot t, the running sum for routing choice t. A step reads each slot, adds the step's product
  times the slot's mask, and stores the slot back; at the first expert the scratch is first filled with the zero word,
  so the slot read back is zero. At the last expert the two slots just stored are read again and each becomes one
  column half of the output block through the gated product.
-/
import proofs.«110065_j36816459661327_2_alg».proof.Proof.Gen.KernelIdeal.Frame
import proofs.«110065_j36816459661327_2_alg».proof.Proof.BodyValue
import proofs.«110065_j36816459661327_2_alg».proof.Proof.Slots
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx

namespace Cert.KernelIdeal.BodyPieces

open Cert.KernelIdeal Cert.KernelIdeal.Gen Cert.KernelIdeal.Slots Cert.KernelIdeal.BodyValue Cert.Moe

theorem hz2 : (![0, 0] : Fin 2 → Nat) = fun _ => 0 := funext fun a => by fin_cases a <;> rfl
theorem hz3 : (![0, 0, 0] : Fin 3 → Nat) = fun _ => 0 := funext fun a => by fin_cases a <;> rfl

/-- One step on an entry of the scratch: the entry plus the step's product at (r, j) times the mask of routing
    choice s against the step's expert. -/
def stepAt (i : grid0.Coords) (x0 : Vec Ideal S512x1024 .bf16) (x1 : Vec Ideal S512x2 .i32) (x2 : Vec Ideal S1x1024x2048 .bf16)
    (prev : EReal) (s : Fin 2) (r : Fin 512) (j : Fin 2048) : EReal :=
  prev + (∑ k : Fin 1024, x0 (ix2 r k) * x2 (ix3 (0 : Fin 1) k j))
    * maskVal (IntOp.cmpi .eq (x1 (ix2 r s)) (BitVec.ofNat 32 (i 1).val))

/-! ## The two stores of a step, on top of any earlier stores -/

/-- The store into slot 1, last: slot 1 holds the step of what was loaded from it. -/
theorem stores_slot1 (i : grid0.Coords) (x0 : Vec Ideal S512x1024 .bf16) (x1 : Vec Ideal S512x2 .i32) (x2 : Vec Ideal S1x1024x2048 .bf16) (a1 : FVec Ideal S1x512x2048 .f32) (inb1)
    (L : List (View.Piece (Elt Ideal) S2x512x2048 .f32)) (r : Fin 512) (j : Fin 2048) :
    View.canon (⟨Rect.unit (s := S2x512x2048) ![1, 0, 0] ![1, 512, 2048] inb1, k0_pay1 (F := Ideal) (k0_pay7 (F := Ideal) i x0 x2 x1 a1)⟩ :: L)
        (ix3 (1 : Fin 2) r j)
      = stepAt i x0 x1 x2 (a1 (ix3 (0 : Fin 1) r j)) 1 r j :=
  (canon_slot1_hit inb1 _ L r j).trans (pay7_apply i x0 x2 x1 a1 r j)

/-- The store into slot 0, under the store into slot 1: slot 0 holds the step of what was loaded from it. -/
theorem stores_slot0 (i : grid0.Coords) (x0 : Vec Ideal S512x1024 .bf16) (x1 : Vec Ideal S512x2 .i32) (x2 : Vec Ideal S1x1024x2048 .bf16) (a0 : FVec Ideal S1x512x2048 .f32) (inb1)
    (w1 : (⟨3, ![1, 512, 2048]⟩ : Shape).Idx → Elt Ideal .f32) (inb0)
    (L : List (View.Piece (Elt Ideal) S2x512x2048 .f32)) (r : Fin 512) (j : Fin 2048) :
    View.canon (⟨Rect.unit (s := S2x512x2048) ![1, 0, 0] ![1, 512, 2048] inb1, w1⟩
        :: ⟨Rect.unit (s := S2x512x2048) ![0, 0, 0] ![1, 512, 2048] inb0, k0_pay6 (F := Ideal) i x0 x2 x1 a0⟩ :: L) (ix3 (0 : Fin 2) r j)
      = stepAt i x0 x1 x2 (a0 (ix3 (0 : Fin 1) r j)) 0 r j :=
  (canon_slot1_miss inb1 w1 _ r j).trans ((canon_slot0_hit inb0 _ L r j).trans (pay6_apply i x0 x2 x1 a0 r j))

/-- After the zero fill, any entry reads the zero word. -/
theorem fill_read (inbW) (y : S2x512x2048.Idx) :
    View.canon [(⟨Rect.unit (s := S2x512x2048) ![0, 0, 0] S2x512x2048.size inbW, k0_pay4 (F := Ideal)⟩ : View.Piece (Elt Ideal) S2x512x2048 .f32)] y
      = Ideal.ofBits .f32 0x00000000#32 :=
  (congrFun (View.canon_unit_zero hz3 inbW _) y).trans (pay4_apply y)

/-! ## A middle step -/

theorem sout_B_slot1 (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S1x1024x2048 .bf16) (harg4 : arg4.IsWhole) (arg5 : Memref sig .tc .vmem S512x2048 .f32) (harg5 : arg5.IsWhole) (arg6 : Memref sig .tc .vmem S2x512x2048 .f32) (harg6 : arg6.IsWhole) (hc0 : ¬cond0_0 i) (hc1 : ¬cond0_1 i)
    (x0 : Vec Ideal S512x1024 .bf16) (x1 : Vec Ideal S512x2 .i32) (x2 : Vec Ideal S1x1024x2048 .bf16) (xs0 : Vec Ideal S2x512x2048 .f32) (r : Fin 512) (j : Fin 2048) :
    sout0_B_0 (F := Ideal) c i arg2 harg2 arg3 harg3 arg4 harg4 arg5 harg5 arg6 harg6 hc0 hc1 x0 x1 x2 xs0 (ix3 (1 : Fin 2) r j)
      = stepAt i x0 x1 x2 (xs0 (ix3 (1 : Fin 2) r j)) 1 r j := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  simp only [View.readAt_eq_ld, harg2.read_unread, harg3.read_unread, harg4.read_unread, harg6.read_unread,
    View.ld_unit_zero (S := S512x1024) hz2, View.ld_unit_zero (S := S512x2) hz2, View.ld_unit_zero (S := S1x1024x2048) hz3]
  refine (stores_slot1 i x0 x1 x2 _ _ _ r j).trans ?_
  exact congrArg (fun p => stepAt i x0 x1 x2 p 1 r j) (ld_slot1 _ xs0 r j)

theorem sout_B_slot0 (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S1x1024x2048 .bf16) (harg4 : arg4.IsWhole) (arg5 : Memref sig .tc .vmem S512x2048 .f32) (harg5 : arg5.IsWhole) (arg6 : Memref sig .tc .vmem S2x512x2048 .f32) (harg6 : arg6.IsWhole) (hc0 : ¬cond0_0 i) (hc1 : ¬cond0_1 i)
    (x0 : Vec Ideal S512x1024 .bf16) (x1 : Vec Ideal S512x2 .i32) (x2 : Vec Ideal S1x1024x2048 .bf16) (xs0 : Vec Ideal S2x512x2048 .f32) (r : Fin 512) (j : Fin 2048) :
    sout0_B_0 (F := Ideal) c i arg2 harg2 arg3 harg3 arg4 harg4 arg5 harg5 arg6 harg6 hc0 hc1 x0 x1 x2 xs0 (ix3 (0 : Fin 2) r j)
      = stepAt i x0 x1 x2 (xs0 (ix3 (0 : Fin 2) r j)) 0 r j := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  simp only [View.readAt_eq_ld, harg2.read_unread, harg3.read_unread, harg4.read_unread, harg6.read_unread,
    View.ld_unit_zero (S := S512x1024) hz2, View.ld_unit_zero (S := S512x2) hz2, View.ld_unit_zero (S := S1x1024x2048) hz3]
  refine (stores_slot0 i x0 x1 x2 _ _ _ _ _ r j).trans ?_
  exact congrArg (fun p => stepAt i x0 x1 x2 p 0 r j) (ld_slot0 _ xs0 r j)

/-- A middle step, both slots. -/
theorem sout_B (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S1x1024x2048 .bf16) (harg4 : arg4.IsWhole) (arg5 : Memref sig .tc .vmem S512x2048 .f32) (harg5 : arg5.IsWhole) (arg6 : Memref sig .tc .vmem S2x512x2048 .f32) (harg6 : arg6.IsWhole) (hc0 : ¬cond0_0 i) (hc1 : ¬cond0_1 i)
    (x0 : Vec Ideal S512x1024 .bf16) (x1 : Vec Ideal S512x2 .i32) (x2 : Vec Ideal S1x1024x2048 .bf16) (xs0 : Vec Ideal S2x512x2048 .f32) (s : Fin 2) (r : Fin 512) (j : Fin 2048) :
    sout0_B_0 (F := Ideal) c i arg2 harg2 arg3 harg3 arg4 harg4 arg5 harg5 arg6 harg6 hc0 hc1 x0 x1 x2 xs0 (ix3 s r j) = stepAt i x0 x1 x2 (xs0 (ix3 s r j)) s r j :=
  (Fin.forall_fin_two (p := fun s => sout0_B_0 (F := Ideal) c i arg2 harg2 arg3 harg3 arg4 harg4 arg5 harg5 arg6 harg6 hc0 hc1 x0 x1 x2 xs0 (ix3 s r j) = stepAt i x0 x1 x2 (xs0 (ix3 s r j)) s r j)).mpr
    ⟨sout_B_slot0 c i arg2 harg2 arg3 harg3 arg4 harg4 arg5 harg5 arg6 harg6 hc0 hc1 x0 x1 x2 xs0 r j, sout_B_slot1 c i arg2 harg2 arg3 harg3 arg4 harg4 arg5 harg5 arg6 harg6 hc0 hc1 x0 x1 x2 xs0 r j⟩ s

/-! ## The last step: the scratch as at a middle step, and the output block -/

theorem sout_C_slot1 (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S1x1024x2048 .bf16) (harg4 : arg4.IsWhole) (arg5 : Memref sig .tc .vmem S512x2048 .f32) (harg5 : arg5.IsWhole) (arg6 : Memref sig .tc .vmem S2x512x2048 .f32) (harg6 : arg6.IsWhole) (hc0 : ¬cond0_0 i) (hc1 : cond0_1 i)
    (x0 : Vec Ideal S512x1024 .bf16) (x1 : Vec Ideal S512x2 .i32) (x2 : Vec Ideal S1x1024x2048 .bf16) (xs0 : Vec Ideal S2x512x2048 .f32) (r : Fin 512) (j : Fin 2048) :
    sout0_C_0 (F := Ideal) c i arg2 harg2 arg3 harg3 arg4 harg4 arg5 harg5 arg6 harg6 hc0 hc1 x0 x1 x2 xs0 (ix3 (1 : Fin 2) r j)
      = stepAt i x0 x1 x2 (xs0 (ix3 (1 : Fin 2) r j)) 1 r j := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  simp only [View.readAt_eq_ld, harg2.read_unread, harg3.read_unread, harg4.read_unread, harg6.read_unread,
    View.ld_unit_zero (S := S512x1024) hz2, View.ld_unit_zero (S := S512x2) hz2, View.ld_unit_zero (S := S1x1024x2048) hz3]
  refine (stores_slot1 i x0 x1 x2 _ _ _ r j).trans ?_
  exact congrArg (fun p => stepAt i x0 x1 x2 p 1 r j) (ld_slot1 _ xs0 r j)

theorem sout_C_slot0 (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S1x1024x2048 .bf16) (harg4 : arg4.IsWhole) (arg5 : Memref sig .tc .vmem S512x2048 .f32) (harg5 : arg5.IsWhole) (arg6 : Memref sig .tc .vmem S2x512x2048 .f32) (harg6 : arg6.IsWhole) (hc0 : ¬cond0_0 i) (hc1 : cond0_1 i)
    (x0 : Vec Ideal S512x1024 .bf16) (x1 : Vec Ideal S512x2 .i32) (x2 : Vec Ideal S1x1024x2048 .bf16) (xs0 : Vec Ideal S2x512x2048 .f32) (r : Fin 512) (j : Fin 2048) :
    sout0_C_0 (F := Ideal) c i arg2 harg2 arg3 harg3 arg4 harg4 arg5 harg5 arg6 harg6 hc0 hc1 x0 x1 x2 xs0 (ix3 (0 : Fin 2) r j)
      = stepAt i x0 x1 x2 (xs0 (ix3 (0 : Fin 2) r j)) 0 r j := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  simp only [View.readAt_eq_ld, harg2.read_unread, harg3.read_unread, harg4.read_unread, harg6.read_unread,
    View.ld_unit_zero (S := S512x1024) hz2, View.ld_unit_zero (S := S512x2) hz2, View.ld_unit_zero (S := S1x1024x2048) hz3]
  refine (stores_slot0 i x0 x1 x2 _ _ _ _ _ r j).trans ?_
  exact congrArg (fun p => stepAt i x0 x1 x2 p 0 r j) (ld_slot0 _ xs0 r j)

/-- The last step, both slots of the scratch. -/
theorem sout_C (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S1x1024x2048 .bf16) (harg4 : arg4.IsWhole) (arg5 : Memref sig .tc .vmem S512x2048 .f32) (harg5 : arg5.IsWhole) (arg6 : Memref sig .tc .vmem S2x512x2048 .f32) (harg6 : arg6.IsWhole) (hc0 : ¬cond0_0 i) (hc1 : cond0_1 i)
    (x0 : Vec Ideal S512x1024 .bf16) (x1 : Vec Ideal S512x2 .i32) (x2 : Vec Ideal S1x1024x2048 .bf16) (xs0 : Vec Ideal S2x512x2048 .f32) (s : Fin 2) (r : Fin 512) (j : Fin 2048) :
    sout0_C_0 (F := Ideal) c i arg2 harg2 arg3 harg3 arg4 harg4 arg5 harg5 arg6 harg6 hc0 hc1 x0 x1 x2 xs0 (ix3 s r j) = stepAt i x0 x1 x2 (xs0 (ix3 s r j)) s r j :=
  (Fin.forall_fin_two (p := fun s => sout0_C_0 (F := Ideal) c i arg2 harg2 arg3 harg3 arg4 harg4 arg5 harg5 arg6 harg6 hc0 hc1 x0 x1 x2 xs0 (ix3 s r j) = stepAt i x0 x1 x2 (xs0 (ix3 s r j)) s r j)).mpr
    ⟨sout_C_slot0 c i arg2 harg2 arg3 harg3 arg4 harg4 arg5 harg5 arg6 harg6 hc0 hc1 x0 x1 x2 xs0 r j, sout_C_slot1 c i arg2 harg2 arg3 harg3 arg4 harg4 arg5 harg5 arg6 harg6 hc0 hc1 x0 x1 x2 xs0 r j⟩ s

/-- The high column half of the output block: the gated product of slot 1 after the step. -/
theorem out_C_hi (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S1x1024x2048 .bf16) (harg4 : arg4.IsWhole) (arg5 : Memref sig .tc .vmem S512x2048 .f32) (harg5 : arg5.IsWhole) (arg6 : Memref sig .tc .vmem S2x512x2048 .f32) (harg6 : arg6.IsWhole) (hc0 : ¬cond0_0 i) (hc1 : cond0_1 i)
    (x0 : Vec Ideal S512x1024 .bf16) (x1 : Vec Ideal S512x2 .i32) (x2 : Vec Ideal S1x1024x2048 .bf16) (xs0 : Vec Ideal S2x512x2048 .f32) (r : Fin 512) (q : Fin 1024) :
    out0_C_3 (F := Ideal) c i arg2 harg2 arg3 harg3 arg4 harg4 arg5 harg5 arg6 harg6 hc0 hc1 x0 x1 x2 xs0 (ix2 r (hi q))
      = gated (fun j => stepAt i x0 x1 x2 (xs0 (ix3 (1 : Fin 2) r j)) 1 r j) q := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  simp only [View.readAt_eq_ld, harg2.read_unread, harg3.read_unread, harg4.read_unread, harg6.read_unread,
    View.ld_unit_zero (S := S512x1024) hz2, View.ld_unit_zero (S := S512x2) hz2, View.ld_unit_zero (S := S1x1024x2048) hz3]
  refine (canon_hi_hit _ _ _ r q).trans ?_
  refine (pay3_apply _ r q).trans ?_
  refine congrArg (fun X => gated X q) (funext fun j => ?_)
  refine (readCov_slot1 _ _ _ r j).trans ?_
  refine (stores_slot1 i x0 x1 x2 _ _ _ r j).trans ?_
  exact congrArg (fun p => stepAt i x0 x1 x2 p 1 r j) (ld_slot1 _ xs0 r j)

/-- The low column half of the output block: the gated product of slot 0 after the step. -/
theorem out_C_lo (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S1x1024x2048 .bf16) (harg4 : arg4.IsWhole) (arg5 : Memref sig .tc .vmem S512x2048 .f32) (harg5 : arg5.IsWhole) (arg6 : Memref sig .tc .vmem S2x512x2048 .f32) (harg6 : arg6.IsWhole) (hc0 : ¬cond0_0 i) (hc1 : cond0_1 i)
    (x0 : Vec Ideal S512x1024 .bf16) (x1 : Vec Ideal S512x2 .i32) (x2 : Vec Ideal S1x1024x2048 .bf16) (xs0 : Vec Ideal S2x512x2048 .f32) (r : Fin 512) (q : Fin 1024) :
    out0_C_3 (F := Ideal) c i arg2 harg2 arg3 harg3 arg4 harg4 arg5 harg5 arg6 harg6 hc0 hc1 x0 x1 x2 xs0 (ix2 r (lo q))
      = gated (fun j => stepAt i x0 x1 x2 (xs0 (ix3 (0 : Fin 2) r j)) 0 r j) q := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  simp only [View.readAt_eq_ld, harg2.read_unread, harg3.read_unread, harg4.read_unread, harg6.read_unread,
    View.ld_unit_zero (S := S512x1024) hz2, View.ld_unit_zero (S := S512x2) hz2, View.ld_unit_zero (S := S1x1024x2048) hz3]
  refine (canon_hi_miss _ _ _ r q).trans ?_
  refine (canon_lo_hit _ _ _ r q).trans ?_
  refine (pay2_apply _ r q).trans ?_
  refine congrArg (fun X => gated X q) (funext fun j => ?_)
  refine (readCov_slot0 _ _ _ r j).trans ?_
  refine (stores_slot0 i x0 x1 x2 _ _ _ _ _ r j).trans ?_
  exact congrArg (fun p => stepAt i x0 x1 x2 p 0 r j) (ld_slot0 _ xs0 r j)

/-! ## The first step: the scratch is filled with the zero word, then stepped -/

theorem sout_A_slot1 (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S1x1024x2048 .bf16) (harg4 : arg4.IsWhole) (arg5 : Memref sig .tc .vmem S512x2048 .f32) (harg5 : arg5.IsWhole) (arg6 : Memref sig .tc .vmem S2x512x2048 .f32) (harg6 : arg6.IsWhole) (hc0 : cond0_0 i) (hc1 : ¬cond0_1 i)
    (x0 : Vec Ideal S512x1024 .bf16) (x1 : Vec Ideal S512x2 .i32) (x2 : Vec Ideal S1x1024x2048 .bf16) (r : Fin 512) (j : Fin 2048) :
    sout0_A_0 (F := Ideal) c i arg2 harg2 arg3 harg3 arg4 harg4 arg5 harg5 arg6 harg6 hc0 hc1 x0 x1 x2 (ix3 (1 : Fin 2) r j)
      = stepAt i x0 x1 x2 (Ideal.ofBits .f32 0x00000000#32) 1 r j := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  simp only [View.readAt_eq_ld, harg2.read_unread, harg3.read_unread, harg4.read_unread,
    View.ld_unit_zero (S := S512x1024) hz2, View.ld_unit_zero (S := S512x2) hz2, View.ld_unit_zero (S := S1x1024x2048) hz3]
  refine (stores_slot1 i x0 x1 x2 _ _ _ r j).trans ?_
  refine congrArg (fun p => stepAt i x0 x1 x2 p 1 r j) ?_
  refine (readCov_slot1 _ _ _ r j).trans ?_
  refine (canon_slot0_miss _ _ _ r j).trans ?_
  exact fill_read _ _

theorem sout_A_slot0 (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S1x1024x2048 .bf16) (harg4 : arg4.IsWhole) (arg5 : Memref sig .tc .vmem S512x2048 .f32) (harg5 : arg5.IsWhole) (arg6 : Memref sig .tc .vmem S2x512x2048 .f32) (harg6 : arg6.IsWhole) (hc0 : cond0_0 i) (hc1 : ¬cond0_1 i)
    (x0 : Vec Ideal S512x1024 .bf16) (x1 : Vec Ideal S512x2 .i32) (x2 : Vec Ideal S1x1024x2048 .bf16) (r : Fin 512) (j : Fin 2048) :
    sout0_A_0 (F := Ideal) c i arg2 harg2 arg3 harg3 arg4 harg4 arg5 harg5 arg6 harg6 hc0 hc1 x0 x1 x2 (ix3 (0 : Fin 2) r j)
      = stepAt i x0 x1 x2 (Ideal.ofBits .f32 0x00000000#32) 0 r j := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  simp only [View.readAt_eq_ld, harg2.read_unread, harg3.read_unread, harg4.read_unread,
    View.ld_unit_zero (S := S512x1024) hz2, View.ld_unit_zero (S := S512x2) hz2, View.ld_unit_zero (S := S1x1024x2048) hz3]
  refine (stores_slot0 i x0 x1 x2 _ _ _ _ _ r j).trans ?_
  refine congrArg (fun p => stepAt i x0 x1 x2 p 0 r j) ?_
  refine (readCov_slot0 _ _ _ r j).trans ?_
  exact fill_read _ _

/-- The first step, both slots. -/
theorem sout_A (c : Dev nD) (i : grid0.Coords) (arg2 : Memref sig .tc .vmem S512x1024 .bf16) (harg2 : arg2.IsWhole) (arg3 : Memref sig .tc .vmem S512x2 .i32) (harg3 : arg3.IsWhole) (arg4 : Memref sig .tc .vmem S1x1024x2048 .bf16) (harg4 : arg4.IsWhole) (arg5 : Memref sig .tc .vmem S512x2048 .f32) (harg5 : arg5.IsWhole) (arg6 : Memref sig .tc .vmem S2x512x2048 .f32) (harg6 : arg6.IsWhole) (hc0 : cond0_0 i) (hc1 : ¬cond0_1 i)
    (x0 : Vec Ideal S512x1024 .bf16) (x1 : Vec Ideal S512x2 .i32) (x2 : Vec Ideal S1x1024x2048 .bf16) (s : Fin 2) (r : Fin 512) (j : Fin 2048) :
    sout0_A_0 (F := Ideal) c i arg2 harg2 arg3 harg3 arg4 harg4 arg5 harg5 arg6 harg6 hc0 hc1 x0 x1 x2 (ix3 s r j) = stepAt i x0 x1 x2 (Ideal.ofBits .f32 0x00000000#32) s r j :=
  (Fin.forall_fin_two (p := fun s => sout0_A_0 (F := Ideal) c i arg2 harg2 arg3 harg3 arg4 harg4 arg5 harg5 arg6 harg6 hc0 hc1 x0 x1 x2 (ix3 s r j) = stepAt i x0 x1 x2 (Ideal.ofBits .f32 0x00000000#32) s r j)).mpr
    ⟨sout_A_slot0 c i arg2 harg2 arg3 harg3 arg4 harg4 arg5 harg5 arg6 harg6 hc0 hc1 x0 x1 x2 r j, sout_A_slot1 c i arg2 harg2 arg3 harg3 arg4 harg4 arg5 harg5 arg6 harg6 hc0 hc1 x0 x1 x2 r j⟩ s

end Cert.KernelIdeal.BodyPieces

end
-- ==== Proof.ScratchInv.lean ====
/-
  The scratch, point by point. Point n of the grid is row block n / 8 and expert n % 8; the kernel sweeps the eight
  experts of a row block in order. After point n the scratch holds, in slot t at (r, j), the ordered sum of the
  contributions of experts 0 … n % 8 to row 512·(n / 8) + r, routing choice t, column j — by induction on the point:
  the first expert of a block starts from the zero fill, every later one from what the point before left.

  The three input blocks of a point are read off the arrays as the region finds them: rows 512·(n / 8) … of the hidden
  array and of the routing choices, and plane n % 8 of the weights.
-/
import proofs.«110065_j36816459661327_2_alg».proof.Proof.Gen.KernelIdeal.Frame
import proofs.«110065_j36816459661327_2_alg».proof.Proof.BodyPieces
import proofs.«110065_j36816459661327_2_alg».proof.Proof.MoeSpec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.Moe

/-- The ordered sum depends on its row and its length only through their values. -/
theorem acc_congr (h : Fin 16384 → Fin 1024 → EReal) (w : Fin 8 → Fin 1024 → Fin 2048 → EReal) (ids : Fin 16384 → Fin 2 → BitVec 32)
    {a a' : Fin 16384} (t : Fin 2) (j : Fin 2048) {n n' : ℕ} (ha : a = a') (hn : n = n') (h1 : n ≤ 8) (h2 : n' ≤ 8) :
    acc h w ids a t j n h1 = acc h w ids a' t j n' h2 := by
  subst ha; subst hn; rfl

end Cert.Moe

namespace Cert.KernelIdeal.ScratchInv

open Cert.KernelIdeal Cert.KernelIdeal.Gen Cert.KernelIdeal.BodyPieces Cert.Moe

variable (m : (ℓ : Loc nD τ sig) → Buf (Elt Ideal) ℓ) (c : Dev nD)

/-- The hidden rows, the expert weights and the routing choices as the region finds them. -/
abbrev Hd : (⟨2, ![16384, 1024]⟩ : Shape).Idx → EReal := V m c main_v0
abbrev Wt : (⟨3, ![8, 1024, 2048]⟩ : Shape).Idx → EReal := V m c main_v1
abbrev Ch : (⟨2, ![16384, 2]⟩ : Shape).Idx → BitVec 32 := V m c main_arg2

/-- Where each window's block sits at point t, and the expert coordinate — decided over the grid. -/
theorem idx_facts : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 3) = t.val % 8 ∧ win0_2.index t (1 : Fin 3) = 0 ∧ win0_2.index t (2 : Fin 3) = 0
    ∧ win0_3.index t (0 : Fin 2) = t.val / 8 ∧ win0_3.index t (1 : Fin 2) = 0
    ∧ (grid0.coords t 1).val = t.val % 8 :=
  (by decide +kernel : ∀ t : Fin grid0.N, _)

/-- Row r of the block of point n, as a row of the whole array. -/
def rowAt (n : ℕ) (hn : n < cfg0.N) (r : Fin 512) : Fin 16384 :=
  ⟨512 * (n / 8) + r.val, by have h : cfg0.N = 256 := N_0; have := r.isLt; omega⟩

/-- The expert of point n. -/
def expertAt (n : ℕ) : Fin 8 := ⟨n % 8, Nat.mod_lt _ (by decide)⟩

/-- The hidden block of point t is rows 512·(t / 8) … of the hidden array. -/
theorem blkH (t : Fin cfg0.N) (r : Fin 512) (k : Fin 1024) :
    (iblk m c 0 t : Vec Ideal S512x1024 .bf16) (ix2 r k) = Hd m c (ix2 (rowAt t.val t.isLt r) k) := by
  obtain ⟨e0, e1, -⟩ := idx_facts t
  unfold iblk
  rw [View.read_apply]
  show V m c main_v0 _ = _
  refine congrArg (V m c main_v0) (funext fun a => Fin.ext ?_)
  match a with
  | ⟨0, _⟩ => show win0_0.index t (0 : Fin 2) * 512 + 1 * r.val = 512 * (t.val / 8) + r.val; rw [e0]; omega
  | ⟨1, _⟩ => show win0_0.index t (1 : Fin 2) * 1024 + 1 * k.val = k.val; rw [e1]; omega

/-- The routing block of point t is the same rows of the routing choices. -/
theorem blkC (t : Fin cfg0.N) (r : Fin 512) (s : Fin 2) :
    (iblk m c 1 t : Vec Ideal S512x2 .i32) (ix2 r s) = Ch m c (ix2 (rowAt t.val t.isLt r) s) := by
  obtain ⟨-, -, e0, e1, -⟩ := idx_facts t
  unfold iblk
  rw [View.read_apply]
  show V m c main_arg2 _ = _
  refine congrArg (V m c main_arg2) (funext fun a => Fin.ext ?_)
  match a with
  | ⟨0, _⟩ => show win0_1.index t (0 : Fin 2) * 512 + 1 * r.val = 512 * (t.val / 8) + r.val; rw [e0]; omega
  | ⟨1, _⟩ => show win0_1.index t (1 : Fin 2) * 2 + 1 * s.val = s.val; rw [e1]; omega

/-- The weight block of point t is plane t % 8 of the weights. -/
theorem blkW (t : Fin cfg0.N) (k : Fin 1024) (j : Fin 2048) :
    (iblk m c 2 t : Vec Ideal S1x1024x2048 .bf16) (ix3 (0 : Fin 1) k j) = Wt m c (ix3 (expertAt t.val) k j) := by
  obtain ⟨-, -, -, -, e0, e1, e2, -⟩ := idx_facts t
  unfold iblk
  rw [View.read_apply]
  show V m c main_v1 _ = _
  refine congrArg (V m c main_v1) (funext fun a => Fin.ext ?_)
  match a with
  | ⟨0, _⟩ => show win0_2.index t (0 : Fin 3) * 1 + 1 * 0 = t.val % 8; rw [e0]; omega
  | ⟨1, _⟩ => show win0_2.index t (1 : Fin 3) * 1024 + 1 * k.val = k.val; rw [e1]; omega
  | ⟨2, _⟩ => show win0_2.index t (2 : Fin 3) * 2048 + 1 * j.val = j.val; rw [e2]; omega

/-- One step at point t, on the point's blocks, adds the point's expert's term. -/
theorem step_blocks (t : Fin cfg0.N) (prev : EReal) (s : Fin 2) (r : Fin 512) (j : Fin 2048) :
    stepAt (grid0.coords t) (iblk m c 0 t) (iblk m c 1 t) (iblk m c 2 t) prev s r j
      = prev + term (hOf (Hd m c)) (wOf (Wt m c)) (idsOf (Ch m c)) (expertAt t.val) (rowAt t.val t.isLt r) s j := by
  obtain ⟨-, -, -, -, -, -, -, -, -, ec⟩ := idx_facts t
  unfold stepAt term hOf wOf idsOf
  refine congrArg (prev + ·) (congrArg₂ (· * ·) (Finset.sum_congr rfl fun k _ => congrArg₂ (· * ·) (blkH m c t r k) (blkW m c t k j)) ?_)
  refine congrArg maskVal (congrArg₂ (IntOp.cmpi .eq) (blkC m c t r s) ?_)
  show BitVec.ofNat 32 (grid0.coords t 1).val = BitVec.ofNat 32 (t.val % 8)
  rw [ec]

/-- THE INVARIANT: after point t the scratch holds the ordered sums through expert t % 8 of the point's row block. -/
theorem scratch_inv (n : ℕ) : ∀ (t : Fin cfg0.N), t.val = n → ∀ (s : Fin 2) (r : Fin 512) (j : Fin 2048),
    (outsAt0 m c t.val t.isLt).2 (ix3 s r j)
      = acc (hOf (Hd m c)) (wOf (Wt m c)) (idsOf (Ch m c)) (rowAt t.val t.isLt r) s j (t.val % 8 + 1) (by omega) := by
  induction n using Nat.strong_induction_on with
  | _ n ih =>
    intro t htn s r j
    by_cases h0 : t.val % 8 = 0
    · have h1 : ¬t.val % 8 = 7 := by omega
      rw [outsAt0_A m c t h0 h1]
      dsimp only
      refine (sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t) s r j).trans ?_
      refine (step_blocks m c t _ s r j).trans ?_
      refine (congrArg (· + term (hOf (Hd m c)) (wOf (Wt m c)) (idsOf (Ch m c)) (expertAt t.val) (rowAt t.val t.isLt r) s j) ?_).trans
        (acc_succ (hOf (Hd m c)) (wOf (Wt m c)) (idsOf (Ch m c)) (rowAt t.val t.isLt r) s j (t.val % 8) (by omega)).symm
      exact (acc_congr (hOf (Hd m c)) (wOf (Wt m c)) (idsOf (Ch m c)) s j rfl h0 (by omega) (Nat.zero_le 8)).symm
    · have hlt := t.isLt
      have hpos : 0 < t.val := by omega
      let t' : Fin cfg0.N := ⟨t.val - 1, by omega⟩
      have ih' := ih (t.val - 1) (by omega) t' rfl s r j
      have hrow : rowAt t'.val t'.isLt r = rowAt t.val t.isLt r :=
        Fin.ext (by show 512 * ((t.val - 1) / 8) + r.val = 512 * (t.val / 8) + r.val; omega)
      have hstep : ∀ prev : EReal, prev = (outsAt0 m c t'.val t'.isLt).2 (ix3 s r j) →
          stepAt (grid0.coords t) (iblk m c 0 t) (iblk m c 1 t) (iblk m c 2 t) prev s r j
            = acc (hOf (Hd m c)) (wOf (Wt m c)) (idsOf (Ch m c)) (rowAt t.val t.isLt r) s j (t.val % 8 + 1) (by omega) := by
        intro prev hp
        refine (step_blocks m c t prev s r j).trans ?_
        refine (congrArg (· + term (hOf (Hd m c)) (wOf (Wt m c)) (idsOf (Ch m c)) (expertAt t.val) (rowAt t.val t.isLt r) s j) ?_).trans
          (acc_succ (hOf (Hd m c)) (wOf (Wt m c)) (idsOf (Ch m c)) (rowAt t.val t.isLt r) s j (t.val % 8) (by omega)).symm
        rw [hp, ih']
        exact acc_congr (hOf (Hd m c)) (wOf (Wt m c)) (idsOf (Ch m c)) s j hrow (by show (t.val - 1) % 8 + 1 = t.val % 8; omega) (by omega) (by omega)
      by_cases h1 : t.val % 8 = 7
      · rw [outsAt0_C m c t h0 h1]
        dsimp only
        refine (sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _ s r j).trans ?_
        exact hstep _ rfl
      · rw [outsAt0_B m c t h0 h1]
        dsimp only
        refine (sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) _ s r j).trans ?_
        exact hstep _ rfl

/-- At the last expert of a row block the step completes the ordered sum over all eight experts. -/
theorem step_last (t : Fin cfg0.N) (h0 : ¬t.val % 8 = 0) (h1 : t.val % 8 = 7) (s : Fin 2) (r : Fin 512) (j : Fin 2048) :
    stepAt (grid0.coords t) (iblk m c 0 t) (iblk m c 1 t) (iblk m c 2 t)
        ((outsAt0 m c (t.val - 1) (Nat.lt_of_le_of_lt (Nat.sub_le _ _) t.isLt)).2 (ix3 s r j)) s r j
      = acc (hOf (Hd m c)) (wOf (Wt m c)) (idsOf (Ch m c)) (rowAt t.val t.isLt r) s j 8 (Nat.le_refl 8) := by
  refine (sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _ s r j).symm.trans ?_
  have e := scratch_inv m c t.val t rfl s r j
  rw [outsAt0_C m c t h0 h1] at e
  dsimp only at e
  refine e.trans ?_
  exact acc_congr (hOf (Hd m c)) (wOf (Wt m c)) (idsOf (Ch m c)) s j rfl (by omega) (by omega) (Nat.le_refl 8)

end Cert.KernelIdeal.ScratchInv

end
-- ==== Proof.KernelValue.lean ====
/-
  The kernel's result array, as one function of the argument arrays.

  The region writes back one [512, 2048] block per row block, at the row block's last expert: columns 0 … 1023 are the
  gated product of slot 0's ordered sum over all eight experts, columns 1024 … 2047 that of slot 1's. The 32 blocks
  tile the [16384, 2048] array, so the array after the region is that function everywhere. Before the region the host
  only changes the float format of the hidden rows and of the weights, which is the identity on extended reals; after it
  the host reshapes [16384, 2048] to [32768, 1024], which sends (m, t·1024 + q) to (2·m + t, q).
-/
import proofs.«110065_j36816459661327_2_alg».proof.Proof.Gen.KernelIdeal.Frame
import proofs.«110065_j36816459661327_2_alg».proof.Proof.ScratchInv
import proofs.«110065_j36816459661327_2_alg».proof.Proof.MoeSpec
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.BodyPieces Cert.KernelIdeal.ScratchInv Cert.Moe

variable (m : (ℓ : Loc nD τ sig) → Buf (Elt Ideal) ℓ) (ρ : Dev nD → PrngReg) (c : Dev nD)

/-- The region's output array: row a, column col holds the gated product, at column col % 1024, of the ordered sum
    for routing choice col / 1024. -/
def outArr (H : (⟨2, ![16384, 1024]⟩ : Shape).Idx → EReal) (W : (⟨3, ![8, 1024, 2048]⟩ : Shape).Idx → EReal)
    (I : (⟨2, ![16384, 2]⟩ : Shape).Idx → BitVec 32) : (⟨2, ![16384, 2048]⟩ : Shape).Idx → EReal := fun y =>
  gated (fun j => acc (hOf H) (wOf W) (idsOf I) ⟨(y 0).val, (y 0).isLt⟩
      ⟨(y 1).val / 1024, by have h : (y 1).val < 2048 := (y 1).isLt; omega⟩ j 8 (Nat.le_refl 8))
    ⟨(y 1).val % 1024, Nat.mod_lt _ (by decide)⟩

/-- The output array at (a, t·1024 + q), for t = 0: the gated product of slot 0's sum. -/
theorem outArr_lo (H W I) (a : Fin 16384) (q : Fin 1024) :
    outArr H W I (ix2 a (lo q)) = gated (fun j => acc (hOf H) (wOf W) (idsOf I) a 0 j 8 (Nat.le_refl 8)) q := by
  have hq := q.isLt
  unfold outArr
  refine congrArg₂ gated (funext fun j => ?_) (Fin.ext (by show q.val % 1024 = q.val; omega))
  exact congrArg (fun tt => acc (hOf H) (wOf W) (idsOf I) a tt j 8 (Nat.le_refl 8)) (Fin.ext (by show q.val / 1024 = 0; omega))

/-- For t = 1: the gated product of slot 1's sum. -/
theorem outArr_hi (H W I) (a : Fin 16384) (q : Fin 1024) :
    outArr H W I (ix2 a (hi q)) = gated (fun j => acc (hOf H) (wOf W) (idsOf I) a 1 j 8 (Nat.le_refl 8)) q := by
  have hq := q.isLt
  unfold outArr
  refine congrArg₂ gated (funext fun j => ?_) (Fin.ext (by show (1024 + q.val) % 1024 = q.val; omega))
  exact congrArg (fun tt => acc (hOf H) (wOf W) (idsOf I) a tt j 8 (Nat.le_refl 8)) (Fin.ext (by show (1024 + q.val) / 1024 = 1; omega))

/-- WHAT A WRITE-BACK WRITES: at the last expert of row block t / 8, that block of the output array. -/
theorem flushed_eq (t : Fin cfg0.N) (hf : (cfg0.win 3).flush t = true) :
    (dats m 0 c).flushed 3 t = ((cfg0.win 3).blk t).view.read (Elt Ideal) (outArr (Hd m c) (Wt m c) (Ch m c)) := by
  have h1 : t.val % 8 = 7 := (flush0_3 t).mp hf
  have h0 : ¬t.val % 8 = 0 := by omega
  obtain ⟨-, -, -, -, -, -, -, e0, e1, -⟩ := idx_facts t
  show (cfg0.win 3).cut (grid0.coords t) ((dats m 0 c).after 3 t) = _
  rw [after0_3, outsAt0_C m c t h0 h1]
  dsimp only
  refine funext fun y => ?_
  obtain ⟨r, col, rfl⟩ : ∃ (r : Fin 512) (col : Fin 2048), y = ix2 r col := ⟨y 0, y 1, eq_ix2 y⟩
  rw [View.read_apply]
  have hemb : ((cfg0.win 3).blk t).view.emb (ix2 r col) = ix2 (rowAt t.val t.isLt r) col := funext fun a => Fin.ext (by
    match a with
    | ⟨0, _⟩ => show win0_3.index t (0 : Fin 2) * 512 + 1 * r.val = 512 * (t.val / 8) + r.val; rw [e0]; omega
    | ⟨1, _⟩ => show win0_3.index t (1 : Fin 2) * 2048 + 1 * col.val = col.val; rw [e1]; omega)
  show out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2 (ix2 r col)
    = outArr (Hd m c) (Wt m c) (Ch m c) (((cfg0.win 3).blk t).view.emb (ix2 r col))
  rw [hemb]
  by_cases hc : col.val < 1024
  · obtain ⟨q, rfl⟩ : ∃ q : Fin 1024, col = lo q := ⟨⟨col.val, hc⟩, rfl⟩
    refine (out_C_lo c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _ r _).trans ?_
    rw [outArr_lo]
    exact congrArg (fun X => gated X _) (funext fun j => step_last m c t h0 h1 0 r j)
  · have hcol := col.isLt
    obtain ⟨q, rfl⟩ : ∃ q : Fin 1024, col = hi q :=
      ⟨⟨col.val - 1024, by omega⟩, Fin.ext (by show col.val = 1024 + (col.val - 1024); omega)⟩
    refine (out_C_hi c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _ r _).trans ?_
    rw [outArr_hi]
    exact congrArg (fun X => gated X _) (funext fun j => step_last m c t h0 h1 1 r j)

/-- An index of the output array is in point t's block iff each coordinate is in the block's range on its axis. -/
theorem mem_blk (t : Fin cfg0.N) (i : S16384x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v2).slice (win0_3.rect t)).set ↔ _
  rw [View.set_slice_whole, Rect.mem_set_unit]
  exact Iff.rfl

/-- Every index of the output array is in the block written back at the last expert of its row block. -/
theorem cover (i : S16384x2048.Idx) :
    ∃ t : Fin cfg0.N, (cfg0.win 3).flush t = true ∧ i ∈ ((cfg0.win 3).blk t).view.set := by
  have hN : cfg0.N = 256 := N_0
  have hi0 : (i 0).val < 16384 := (i 0).isLt
  have hi1 : (i 1).val < 2048 := (i 1).isLt
  let t : Fin cfg0.N := ⟨8 * ((i 0).val / 512) + 7, by omega⟩
  obtain ⟨-, -, -, -, -, -, -, e0, e1, -⟩ := idx_facts t
  have ht : t.val = 8 * ((i 0).val / 512) + 7 := rfl
  refine ⟨t, (flush0_3 t).mpr (by rw [ht]; omega), ?_⟩
  rw [mem_blk]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 2048 ≤ (i 1).val ∧ (i 1).val < win0_3.index t (1 : Fin 2) * 2048 + 2048; rw [e1]; omega

/-- THE OUTPUT ARRAY after the region. -/
theorem final3 : (dats m 0 c).arrAt 3 cfg0.N = outArr (Hd m c) (Wt m c) (Ch m c) :=
  (dats m 0 c).arrAt_eq_of_cover 3 (outArr (Hd m c) (Wt m c) (Ch m c)) (fun t hf => flushed_eq m c t hf) (cover)

/-! ## The host operations around the region -/

/-- The change of float format before the region is the identity on extended reals: the region finds the hidden rows; -/
theorem Hd_eq : Hd m c = (m ((c : Thread nD τ).loc main_arg0) : S16384x1024.Idx → EReal) := by
  show StableHlo.after hostOps0 (fun b => m (c, b)) (Proc.devRef .tc main_v0) = _
  after_results
  rfl

/-- and the weights, as launched. -/
theorem Wt_eq : Wt m c = (m ((c : Thread nD τ).loc main_arg1) : S8x1024x2048.Idx → EReal) := by
  show StableHlo.after hostOps0 (fun b => m (c, b)) (Proc.devRef .tc main_v1) = _
  after_results
  rfl

/-- The whole result as one function of the three argument arrays: entry (p, q) of the specification. -/
def resultArr (A0 : (⟨2, ![16384, 1024]⟩ : Shape).Idx → EReal) (A1 : (⟨3, ![8, 1024, 2048]⟩ : Shape).Idx → EReal)
    (A2 : (⟨2, ![16384, 2]⟩ : Shape).Idx → BitVec 32) : (⟨2, ![32768, 1024]⟩ : Shape).Idx → EReal := fun i =>
  result (hOf A0) (wOf A1) (idsOf A2) ⟨(i 0).val, (i 0).isLt⟩ ⟨(i 1).val, (i 1).isLt⟩

/-- The reshape after the region reads (p, q) at (p / 2, (p % 2)·1024 + q): the output array reshaped is the result. -/
theorem reshape_out (A0 A1 A2) (h : (⟨2, ![16384, 2048]⟩ : Shape).ShapeCasts ⟨2, ![32768, 1024]⟩) (i : (⟨2, ![32768, 1024]⟩ : Shape).Idx) :
    shapeCast ⟨2, ![32768, 1024]⟩ (outArr A0 A1 A2) h i = resultArr A0 A1 A2 i := by
  obtain ⟨p, q, rfl⟩ : ∃ (p : Fin 32768) (q : Fin 1024), i = ix2 p q := ⟨i 0, i 1, eq_ix2 i⟩
  have hp := p.isLt
  have hq := q.isLt
  refine (shapeCast_apply (outArr A0 A1 A2) h (ix2 p q) (ix2 (rowOf p) (⟨p.val % 2 * 1024 + q.val, by omega⟩ : Fin 2048)) (by
    rw [Shape.rowMajor_val_two, Shape.rowMajor_val_two]
    show p.val / 2 * 2048 + (p.val % 2 * 1024 + q.val) = p.val * 1024 + q.val
    omega)).trans ?_
  unfold outArr resultArr result
  refine congrArg₂ gated (funext fun j => ?_) (Fin.ext (by show (p.val % 2 * 1024 + q.val) % 1024 = q.val; omega))
  exact congrArg (fun tt => acc (hOf A0) (wOf A1) (idsOf A2) (rowOf p) tt j 8 (Nat.le_refl 8))
    (Fin.ext (by show (p.val % 2 * 1024 + q.val) / 1024 = p.val % 2; omega))

/-- The program's result buffer after the run. -/
theorem tail_eq : Pipeline.afterTail₀ cfgs (dats m) 0 (V0 m) [hostOps1] c main_v3
    = (resultArr (m ((c : Thread nD τ).loc main_arg0)) (m ((c : Thread nD τ).loc main_arg1)) (m ((c : Thread nD τ).loc main_arg2)) : S32768x1024.Idx → EReal) := by
  unfold Pipeline.afterTail₀
  show StableHlo.after hostOps1 _ (Proc.devRef .tc main_v3) = _
  after_results
  have hw := (Pipeline.withArrays_arr spec0 launch0.win.arr_inj c (V0 m c) (fun w => (dats m 0 c).arrAt w cfg0.N) 3).trans (final3 m c)
  show (fun i => shapeCast S32768x1024 (Pipeline.withArrays spec0 c (V0 m c) (fun w => (dats m 0 c).arrAt w cfg0.N) (Proc.devRef .tc (Pipeline.arrRef spec0 3))) shapeCasts_S16384x2048_S32768x1024 i) = _
  rw [hw, Hd_eq, Wt_eq, show Ch m c = _ from V_main_arg2 m c]
  exact funext fun i => reshape_out _ _ _ _ i

/-- THE RUN, READ: the result buffer at the specification of the launch contents, the arguments unchanged. -/
theorem run : θ_run defs (onTc (τ := τ) (main (F := Ideal))) ⟨m, fun _ => 0, ρ⟩ fun r => ∀ c : Dev nD,
      r.2.mem ((c.tc : Thread nD τ).loc main_v3)
        = (resultArr (m ((c.tc : Thread nD τ).loc main_arg0)) (m ((c.tc : Thread nD τ).loc main_arg1)) (m ((c.tc : Thread nD τ).loc main_arg2)) : S32768x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.KValue

end
-- ==== Proof.RefIsSpec.lean ====
/-
  The reference program is the specification: read one entry at a time, its result at (p, q) is the gated product of
  the ordered sum over the eight experts.

  The reference repeats each hidden row twice (row p of the repeated array is row p / 2 of the input), flattens the
  routing choices (entry p is choice p % 2 of row p / 2), and for each expert e in order adds
  (repeated rows · w_e) · [flat choice = e] to a zero array; the gate is x · (1 / (1 + exp(−x))), which is x · logistic x.
-/
import proofs.«110065_j36816459661327_2_alg».proof.Proof.Gen.ReferenceIdeal.Read
import proofs.«110065_j36816459661327_2_alg».proof.Proof.MoeSpec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Read Cert.Moe

/-- The f32 word of 1.0 is the number one. -/
theorem one_bits : Ideal.ofBits .f32 0x3F800000#32 = 1 := by
  simp [Ideal.ofBits, Ideal.ieee, -EReal.coe_mul]; norm_num

/-- Row p of the repeated hidden array, column k, is row p / 2 of the input. -/
theorem hidden_idx (p : Fin 32768) (j : Fin 2048) (k : Fin 1024) :
    idx_main_v0 (idx_main_v1 (lidx_main_v10 (ix2 p j) k)) = ix2 (rowOf p) k := by
  funext a
  apply Fin.ext
  have hp := p.isLt
  have hk := k.isLt
  match a with
  | ⟨0, _⟩ => show (p.val * 1024 + k.val) / 2048 = p.val / 2; omega
  | ⟨1, _⟩ => show (p.val * 1024 + k.val) % 1024 = k.val; omega

/-- Entry p of the flattened routing choices is choice p % 2 of row p / 2. -/
theorem choice_idx (p : Fin 32768) (j : Fin 2048) :
    idx_main_v2 (idx_main_v7 (idx_main_v11 (ix2 p j))) = ix2 (rowOf p) (choiceOf p) := by
  funext a
  apply Fin.ext
  match a with
  | ⟨0, _⟩ => rfl
  | ⟨1, _⟩ => rfl

/-- An index of the stacked weights with expert coordinate e and the flattened (k, j) position is (e, k, j). -/
theorem weight_idx (e : Fin 8) (k : Fin 1024) (j : Fin 2048) (y : S8x1024x2048.Idx)
    (h0 : (y 0).val = e.val) (h1 : (y 1).val = (k.val * 2048 + j.val) / 2048 % 1024)
    (h2 : (y 2).val = (k.val * 2048 + j.val) % 2048) : y = ix3 e k j := by
  funext a
  apply Fin.ext
  have hk := k.isLt
  have hj := j.isLt
  match a with
  | ⟨0, _⟩ => exact h0
  | ⟨1, _⟩ => exact h1.trans (show (k.val * 2048 + j.val) / 2048 % 1024 = k.val by omega)
  | ⟨2, _⟩ => exact h2.trans (show (k.val * 2048 + j.val) % 2048 = j.val by omega)

/-- One expert's term of the reference, read at (p, j): the product of the repeated rows with the expert's matrix,
    times the mask of the flattened routing choices. The eight experts' operations differ only in their names. -/
macro "expert_term" d:ident vL:ident vM:ident v7:ident v6:ident v5:ident v4:ident v9:ident v8:ident : tactic =>
  `(tactic| (
    rw [$d:ident, $vL:ident, $vM:ident, $v7:ident, $v6:ident, $v5:ident, val_main_v2_apply, $v4:ident]
    unfold term
    refine congrArg₂ (· * ·) (Finset.sum_congr rfl fun k _ => congrArg₂ (· * ·) ?_ ?_) ?_
    · rw [val_main_v1_apply, val_main_v0_apply]; exact congrArg _ (hidden_idx _ _ k)
    · rw [$v9:ident, $v8:ident]; exact congrArg _ (weight_idx _ k _ _ rfl rfl rfl)
    · exact (mask_uitofp _).trans (congrArg maskVal (congrArg₂ (IntOp.cmpi .eq) (congrArg _ (choice_idx _ _)) rfl))))

variable (x0 : (⟨S16384x1024, .f32⟩ : BufTy).Contents (Elt Ideal)) (x1 : (⟨S8x1024x2048, .f32⟩ : BufTy).Contents (Elt Ideal))
  (x2 : (⟨S16384x2, .i32⟩ : BufTy).Contents (Elt Ideal))

theorem term0 (p : Fin 32768) (j : Fin 2048) :
    val_main_v12 (F := Ideal) x0 x1 x2 (ix2 p j) = term (hOf x0) (wOf x1) (idsOf x2) ⟨0, by decide⟩ (rowOf p) (choiceOf p) j := by
  expert_term val_main_v12_apply val_main_v10_apply val_main_v11_apply val_main_v7_apply val_main_v6_apply val_main_v5_apply val_main_v4_apply val_main_v9_apply val_main_v8_apply

theorem term1 (p : Fin 32768) (j : Fin 2048) :
    val_main_v22 (F := Ideal) x0 x1 x2 (ix2 p j) = term (hOf x0) (wOf x1) (idsOf x2) ⟨1, by decide⟩ (rowOf p) (choiceOf p) j := by
  expert_term val_main_v22_apply val_main_v20_apply val_main_v21_apply val_main_v17_apply val_main_v16_apply val_main_v15_apply val_main_v14_apply val_main_v19_apply val_main_v18_apply

theorem term2 (p : Fin 32768) (j : Fin 2048) :
    val_main_v32 (F := Ideal) x0 x1 x2 (ix2 p j) = term (hOf x0) (wOf x1) (idsOf x2) ⟨2, by decide⟩ (rowOf p) (choiceOf p) j := by
  expert_term val_main_v32_apply val_main_v30_apply val_main_v31_apply val_main_v27_apply val_main_v26_apply val_main_v25_apply val_main_v24_apply val_main_v29_apply val_main_v28_apply

theorem term3 (p : Fin 32768) (j : Fin 2048) :
    val_main_v42 (F := Ideal) x0 x1 x2 (ix2 p j) = term (hOf x0) (wOf x1) (idsOf x2) ⟨3, by decide⟩ (rowOf p) (choiceOf p) j := by
  expert_term val_main_v42_apply val_main_v40_apply val_main_v41_apply val_main_v37_apply val_main_v36_apply val_main_v35_apply val_main_v34_apply val_main_v39_apply val_main_v38_apply

theorem term4 (p : Fin 32768) (j : Fin 2048) :
    val_main_v52 (F := Ideal) x0 x1 x2 (ix2 p j) = term (hOf x0) (wOf x1) (idsOf x2) ⟨4, by decide⟩ (rowOf p) (choiceOf p) j := by
  expert_term val_main_v52_apply val_main_v50_apply val_main_v51_apply val_main_v47_apply val_main_v46_apply val_main_v45_apply val_main_v44_apply val_main_v49_apply val_main_v48_apply

theorem term5 (p : Fin 32768) (j : Fin 2048) :
    val_main_v62 (F := Ideal) x0 x1 x2 (ix2 p j) = term (hOf x0) (wOf x1) (idsOf x2) ⟨5, by decide⟩ (rowOf p) (choiceOf p) j := by
  expert_term val_main_v62_apply val_main_v60_apply val_main_v61_apply val_main_v57_apply val_main_v56_apply val_main_v55_apply val_main_v54_apply val_main_v59_apply val_main_v58_apply

theorem term6 (p : Fin 32768) (j : Fin 2048) :
    val_main_v72 (F := Ideal) x0 x1 x2 (ix2 p j) = term (hOf x0) (wOf x1) (idsOf x2) ⟨6, by decide⟩ (rowOf p) (choiceOf p) j := by
  expert_term val_main_v72_apply val_main_v70_apply val_main_v71_apply val_main_v67_apply val_main_v66_apply val_main_v65_apply val_main_v64_apply val_main_v69_apply val_main_v68_apply

theorem term7 (p : Fin 32768) (j : Fin 2048) :
    val_main_v82 (F := Ideal) x0 x1 x2 (ix2 p j) = term (hOf x0) (wOf x1) (idsOf x2) ⟨7, by decide⟩ (rowOf p) (choiceOf p) j := by
  expert_term val_main_v82_apply val_main_v80_apply val_main_v81_apply val_main_v77_apply val_main_v76_apply val_main_v75_apply val_main_v74_apply val_main_v79_apply val_main_v78_apply

/-- The reference's accumulated projection at (p, j): the ordered sum of the eight terms from the zero word. -/
theorem inter_eq (p : Fin 32768) (j : Fin 2048) :
    val_main_v83 (F := Ideal) x0 x1 x2 (ix2 p j)
      = acc (hOf x0) (wOf x1) (idsOf x2) (rowOf p) (choiceOf p) j 8 (Nat.le_refl 8) := by
  rw [val_main_v83_apply, val_main_v73_apply, val_main_v63_apply, val_main_v53_apply, val_main_v43_apply, val_main_v33_apply,
    val_main_v23_apply, val_main_v13_apply, val_main_v3_apply,
    term0, term1, term2, term3, term4, term5, term6, term7]
  rfl

/-- The reference's result at (p, q) is the specification's. -/
theorem ref_is_result (p : Fin 32768) (q : Fin 1024) :
    val_main_v87 (F := Ideal) x0 x1 x2 (ix2 p q) = result (hOf x0) (wOf x1) (idsOf x2) p q := by
  rw [val_main_v87_apply, val_main_v86_apply, val_main_call0_v5_apply, val_main_call0_v4_apply, val_main_call0_v3_apply,
    val_main_call0_v2_apply, val_main_call0_v1_apply, val_main_call0_v0_apply, val_main_v84_apply, val_main_v85_apply]
  have e84 : idx_main_v84 (ix2 p q) = ix2 p (lo q) := funext fun a => Fin.ext (by
    match a with
    | ⟨0, _⟩ => rfl
    | ⟨1, _⟩ => rfl)
  have e85 : idx_main_v85 (ix2 p q) = ix2 p (hi q) := funext fun a => Fin.ext (by
    match a with
    | ⟨0, _⟩ => rfl
    | ⟨1, _⟩ => rfl)
  rw [e84, e85, inter_eq, inter_eq]
  unfold result gated Ideal.logistic
  show (_ * Ideal.div (Ideal.ofBits .f32 0x3F800000#32) (Ideal.ofBits .f32 0x3F800000#32 + Ideal.exp (-_))) * _ = _
  rw [one_bits]

end Cert.ReferenceIdeal.RefValue

end
-- ==== Proof.lean ====
/-
  The certificate of a routed expert projection with a gated activation.

  Both programs compute, for every hidden row m and each of its two routing choices t, the projection of the row by the
  chosen expert's weight matrix — as the ordered sum over all eight experts e of (row · w_e) · [ids(m, t) = e] from zero —
  and return, at row 2·m + t, the product (g · logistic g) · u of its low and high column halves.

  The kernel sweeps the experts on the inner grid axis, keeping the two sums of a block of 512 rows in a scratch buffer
  that it zeroes at the first expert and turns into an output block at the last; the reference repeats the rows, flattens
  the choices and adds the eight masked products to a zero array. Read on the extended reals the two are one function of
  the arguments, term by term and in the same order: no law of arithmetic is needed, only that a change of float format is
  the identity, that a block product is the plain sum over the contracted axis on both sides, that the mask bit reads as the
  same number signed or unsigned, and that x · (1 / (1 + exp(−x))) is x · logistic x. The finiteness precondition is not used.

  The three frames: the kernel's two are the imported generated frames; the reference's is its imported generated run with
  the result dropped. The idealization rewrote nothing, so what it preserves is trivial.
-/
import proofs.«110065_j36816459661327_2_alg».proof.Defs
import proofs.«110065_j36816459661327_2_alg».proof.Proof.Gen.Kernel
import proofs.«110065_j36816459661327_2_alg».proof.Proof.Gen.Kernel.Frame
import proofs.«110065_j36816459661327_2_alg».proof.Proof.Gen.KernelIdeal
import proofs.«110065_j36816459661327_2_alg».proof.Proof.Gen.KernelIdeal.Frame
import proofs.«110065_j36816459661327_2_alg».proof.Proof.Gen.ReferenceIdeal
import proofs.«110065_j36816459661327_2_alg».proof.Proof.Gen.ReferenceIdeal.Run
import proofs.«110065_j36816459661327_2_alg».proof.Proof.Gen.ReferenceIdeal.Read
import proofs.«110065_j36816459661327_2_alg».proof.Proof.Gen.Pre_finite_inputs
import proofs.«110065_j36816459661327_2_alg».proof.Proof.KernelValue
import proofs.«110065_j36816459661327_2_alg».proof.Proof.RefIsSpec
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result, as a whole array, is the specification of its arguments. -/
theorem ref_result (x0 : (⟨Cert.ReferenceIdeal.S16384x1024, .f32⟩ : BufTy).Contents (Elt Ideal))
    (x1 : (⟨Cert.ReferenceIdeal.S8x1024x2048, .f32⟩ : BufTy).Contents (Elt Ideal))
    (x2 : (⟨Cert.ReferenceIdeal.S16384x2, .i32⟩ : BufTy).Contents (Elt Ideal)) :
    Cert.ReferenceIdeal.Read.val_main_v87 (F := Ideal) x0 x1 x2 = Cert.KernelIdeal.KValue.resultArr x0 x1 x2 :=
  funext fun i => by
    obtain ⟨p, q, rfl⟩ : ∃ (p : Fin 32768) (q : Fin 1024), i = ix2 p q := ⟨i 0, i 1, eq_ix2 i⟩
    exact Cert.ReferenceIdeal.RefValue.ref_is_result x0 x1 x2 p q

/-- Both idealized programs end with the specification of the arguments in their result buffers. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v87_eq, (hagree c).1, (hagree c).2.1, (hagree c).2.2]
  exact ref_result _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
